-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S128x128 .f32) (main_arg9 : FVec F S128 .f32) (main_arg10 : FVec F S128x128 .f32) (main_arg11 : FVec F S1x128 .f32) (main_arg12 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S1x128 .f32 := Host.absf main_arg11
  let main_cst_18 : FVec F S_ .f32 := constant S_ .f32 0x7F800000#32
  let main_v50 : FVec F S1x128 .f32 := broadcastInDim S1x128 ![] bcast_S_S1x128 main_cst_18
  fn_part3 (F := F) main_arg12 main_v48 main_v49 main_v50

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S1x128 .f32) (main_arg12 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S1x128 .f32) (main_arg12 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S4000x128 : Shape := ⟨2, ![4000, 128]⟩
abbrev S128x1 : Shape := ⟨2, ![128, 1]⟩
abbrev S1x1 : Shape := ⟨2, ![1, 1]⟩

abbrev nBuf : Space → Nat
  | .hbm => 110
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x128, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S_, .f32⟩
  | .hbm, ⟨31, _⟩ => ⟨S1600000, .f32⟩
  | .hbm, ⟨32, _⟩ => ⟨S_, .f32⟩
  | .hbm, ⟨33, _⟩ => ⟨S100000, .f32⟩
  | .hbm, ⟨34, _⟩ => ⟨S1600000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S1x128, .f32⟩
  | .hbm, ⟨44, _⟩ => ⟨S128x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S128x128, .f32⟩
  | .hbm, ⟨72, _⟩ => ⟨S1x128, .f32⟩
  | .hbm, ⟨73, _⟩ => ⟨S128x128, .f32⟩
  | .hbm, ⟨74, _⟩ => ⟨S100000x128, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1600000x128, .f32⟩
  | .hbm, ⟨84, _⟩ => ⟨S_, .f32⟩
  | .hbm, ⟨85, _⟩ => ⟨S100000x128, .f32⟩
  | .hbm, ⟨86, _⟩ => ⟨S1600000x1, .i32⟩
  | .hbm, ⟨87, _⟩ => ⟨S100000x128, .f32⟩
  | .hbm, ⟨88, _⟩ => ⟨S_, .f32⟩
  | .hbm, ⟨89, _⟩ => ⟨S1600000, .f32⟩
  | .hbm, ⟨90, _⟩ => ⟨S_, .f32⟩
  | .hbm, ⟨91, _⟩ => ⟨S100000, .f32⟩
  | .hbm, ⟨92, _⟩ => ⟨S1600000x1, .i32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x128, .f32⟩
  | .hbm, ⟨99, _⟩ => ⟨S100000x128, .f32⟩
  | .hbm, ⟨100, _⟩ => ⟨S128x128, .f32⟩
  | .hbm, ⟨101, _⟩ => ⟨S1x128, .f32⟩
  | .hbm, ⟨102, _⟩ => ⟨S128x128, .f32⟩
  | .hbm, ⟨103, _⟩ => ⟨S100000x128, .f32⟩
  | .hbm, ⟨104, _⟩ => ⟨S128x1, .f32⟩
  | .hbm, ⟨105, _⟩ => ⟨S100000x1, .f32⟩
  | .hbm, ⟨106, _⟩ => ⟨S1x1, .f32⟩
  | .hbm, ⟨107, _⟩ => ⟨S100000x1, .f32⟩
  | .hbm, ⟨108, _⟩ => ⟨S100000x1, .f32⟩
  | .hbm, ⟨109, _⟩ => ⟨S100000, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S4000x128, .f32⟩
  | .local _ .vmem, ⟨26, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_10 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_13 : Ref sig .tc := ⟨.hbm, 88, rfl⟩
abbrev main_v60 : Ref sig .tc := ⟨.hbm, 89, rfl⟩
abbrev main_cst_14 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_15 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  transposes_S1x128_S128x1_1_0 : S1x128.Transposes [1, 0] S128x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  dot_S100000x128_S128x1_S100000x1_1_0_0_1_n_n_wf : DotDims.WF S100000x128 S128x1 S100000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .f32 = 32 ∨ (Rect.block (s := S100000x128) S4000x128.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

abbrev win0_0 : Pipeline.Window sig grid0 :=
  Pipeline.Window.ofSpec (Memref.whole main_v22) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v68) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v69) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v70) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v71) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v72) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S128x1 : Shape := ⟨2, ![128, 1]⟩
abbrev S1x1 : Shape := ⟨2, ![1, 1]⟩

abbrev nBuf : Space → Nat
  | .hbm => 139
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S1x128, .f32⟩
  | 12 => ⟨S1, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x128, .f32⟩
  | 26 => ⟨S_, .f32⟩
  | 27 => ⟨S100000x128, .f32⟩
  | 28 => ⟨S1600000x1, .i32⟩
  | 29 => ⟨S100000x128, .f32⟩
  | 30 => ⟨S_, .f32⟩
  | 31 => ⟨S1600000, .f32⟩
  | 32 => ⟨S_, .f32⟩
  | 33 => ⟨S100000, .f32⟩
  | 34 => ⟨S1600000x1, .i32⟩
  | 35 => ⟨S100000, .f32⟩
  | 36 => ⟨S_, .f32⟩
  | 37 => ⟨S100000, .f32⟩
  | 38 => ⟨S100000, .f32⟩
  | 39 => ⟨S100000x1, .f32⟩
  | 40 => ⟨S100000x128, .f32⟩
  | 41 => ⟨S100000x128, .f32⟩
  | 42 => ⟨S128x128, .f32⟩
  | 43 => ⟨S100000x128, .f32⟩
  | 44 => ⟨S1x128, .f32⟩
  | 45 => ⟨S100000x128, .f32⟩
  | 46 => ⟨S100000x128, .f32⟩
  | 47 => ⟨S128x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S1x1600000, .i32⟩
  | 54 => ⟨S1600000, .i32⟩
  | 55 => ⟨S1x1600000, .i32⟩
  | 56 => ⟨S1600000, .i32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x128, .f32⟩
  | 66 => ⟨S_, .f32⟩
  | 67 => ⟨S100000x128, .f32⟩
  | 68 => ⟨S1600000x1, .i32⟩
  | 69 => ⟨S100000x128, .f32⟩
  | 70 => ⟨S_, .f32⟩
  | 71 => ⟨S1600000, .f32⟩
  | 72 => ⟨S_, .f32⟩
  | 73 => ⟨S100000, .f32⟩
  | 74 => ⟨S1600000x1, .i32⟩
  | 75 => ⟨S100000, .f32⟩
  | 76 => ⟨S_, .f32⟩
  | 77 => ⟨S100000, .f32⟩
  | 78 => ⟨S100000, .f32⟩
  | 79 => ⟨S100000x1, .f32⟩
  | 80 => ⟨S100000x128, .f32⟩
  | 81 => ⟨S100000x128, .f32⟩
  | 82 => ⟨S128x128, .f32⟩
  | 83 => ⟨S100000x128, .f32⟩
  | 84 => ⟨S1x128, .f32⟩
  | 85 => ⟨S100000x128, .f32⟩
  | 86 => ⟨S100000x128, .f32⟩
  | 87 => ⟨S128x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S1x1600000, .i32⟩
  | 94 => ⟨S1600000, .i32⟩
  | 95 => ⟨S1x1600000, .i32⟩
  | 96 => ⟨S1600000, .i32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x128, .f32⟩
  | 106 => ⟨S_, .f32⟩
  | 107 => ⟨S100000x128, .f32⟩
  | 108 => ⟨S1600000x1, .i32⟩
  | 109 => ⟨S100000x128, .f32⟩
  | 110 => ⟨S_, .f32⟩
  | 111 => ⟨S1600000, .f32⟩
  | 112 => ⟨S_, .f32⟩
  | 113 => ⟨S100000, .f32⟩
  | 114 => ⟨S1600000x1, .i32⟩
  | 115 => ⟨S100000, .f32⟩
  | 116 => ⟨S_, .f32⟩
  | 117 => ⟨S100000, .f32⟩
  | 118 => ⟨S100000, .f32⟩
  | 119 => ⟨S100000x1, .f32⟩
  | 120 => ⟨S100000x128, .f32⟩
  | 121 => ⟨S100000x128, .f32⟩
  | 122 => ⟨S128x128, .f32⟩
  | 123 => ⟨S100000x128, .f32⟩
  | 124 => ⟨S1x128, .f32⟩
  | 125 => ⟨S100000x128, .f32⟩
  | 126 => ⟨S100000x128, .f32⟩
  | 127 => ⟨S128x128, .f32⟩
  | _ => ⟨S100000x128, .f32⟩

abbrev hbmTy0_1 (i : Nat) : BufTy := match i % 128 with
  | 0 => ⟨S100000x128, .f32⟩
  | 1 => ⟨S100000x128, .f32⟩
  | 2 => ⟨S_, .f32⟩
  | 3 => ⟨S100000x128, .f32⟩
  | 4 => ⟨S100000x128, .f32⟩
  | 5 => ⟨S128x1, .f32⟩
  | 6 => ⟨S100000x1, .f32⟩
  | 7 => ⟨S1x1, .f32⟩
  | 8 => ⟨S100000x1, .f32⟩
  | 9 => ⟨S100000x1, .f32⟩
  | 10 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call0_cst : Ref sig .tc := ⟨.hbm, 50, rfl⟩
abbrev main_call0_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_4 : Ref sig .tc := ⟨.hbm, 57, rfl⟩
abbrev main_v36 : Ref sig .tc := ⟨.hbm, 58, rfl⟩
abbrev main_v37 : Ref sig .tc := ⟨.hbm, 59, rfl⟩
abbrev main_c_5 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_cst_8 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_9 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_call1_cst : Ref sig .tc := ⟨.hbm, 90, rfl⟩
abbrev main_call1_v0 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_10 : Ref sig .tc := ⟨.hbm, 97, rfl⟩
abbrev main_v68 : Ref sig .tc := ⟨.hbm, 98, rfl⟩
abbrev main_v69 : Ref sig .tc := ⟨.hbm, 99, rfl⟩
abbrev main_c_11 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_12 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_13 : Ref sig .tc := ⟨.hbm, 110, rfl⟩
abbrev main_v78 : Ref sig .tc := ⟨.hbm, 111, rfl⟩
abbrev main_cst_14 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_15 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_call2_cst : Ref sig .tc := ⟨.hbm, 130, rfl⟩
abbrev main_call2_v0 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S1x128_S128x1_1_0 : S1x128.Transposes [1, 0] S128x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KernelRun.lean ====
/-
  The idealized kernel's run, with every buffer's final contents named.

  The program is seven segments: a stretch of host operations, a tiled launch of the dense layer, and so on three
  times, then the closing stretch. The generated frame module folds the buffer contents through these segments:
  `W1` after the first stretch, `W2` after the first launch (its arrays at what the write-backs leave, every other
  buffer as before), … , `W7` after the last stretch. Here the same launch theorem is applied with a post that
  keeps all of it: every weakly fair execution terminates without a fault, and in the final state every buffer
  that lives for the whole run holds `W7`'s contents. The result buffer and the argument buffers are among them.
-/
import proofs.«158092_j68453188763778_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every buffer that is not scoped
    to a region ends at the contents the fold `W7` gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The result buffer ends at the fold's contents, and the thirteen argument buffers as they were launched. -/
theorem run_result : θ_run defs (onTc (τ := τ) (main (F := F))) ⟨m, fun _ => 0, ρ⟩ (fun r => ∀ c : Dev nD,
      r.2.mem ((c.tc : Thread nD τ).loc main_v78) = W7 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun s h c =>
      ⟨h c _ (mem_uc main_v78 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c)⟩)
    (run_all m ρ)

end Cert.KernelIdeal.Whole

end
-- ==== Proof.Layer.lean ====
/-
  One dense layer of the network, as a function of whole arrays on the extended reals.

  For a feature matrix with R rows and 128 columns, the layer's output at row p and column q is

      max ( ( Σ_k agg(p,k) · wl(k,q)  +  b(0,q) )  +  Σ_k x(p,k) · wr(k,q) ,  0 )

  with agg the aggregated neighbour features, x the node's own features, wl and wr the two weight matrices
  (already transposed, so that column q of the result pairs with column q of each) and b the bias stored as a
  matrix of one row. The sums range over the 128 input features. The additions are taken in this order.

  Row p of the output depends on row p of agg and of x only, and on all of wl, wr and b. So the rows
  off, off+1, …, off+R'-1 of the layer applied to matrices of R rows are the layer applied to those rows alone:
  a tiling of the rows computes the same matrix, tile by tile (`dense_rows`).
-/
import Idealize.ShloMosaic.PureOps.Ideal
import Idealize.ShloMosaic.Lib.ValueIdx

noncomputable section

open scoped BigOperators

namespace Cert.Spec

open Idealize.ShloMosaic Idealize.ShloMosaic.ValueIdx

/-- A matrix of R rows and 128 columns of extended reals, as a function of its index. -/
abbrev Mat (R C : Nat) : Type := (⟨2, ![R, C]⟩ : Shape).Idx → EReal

/-- The layer's output at row p, column q. -/
def denseAt {R : Nat} (agg x : Mat R 128) (wl wr : Mat 128 128) (b : Mat 1 128) (p : Fin R) (q : Fin 128) : EReal :=
  max ((∑ k : Fin 128, agg (ix2 p k) * wl (ix2 k q) + b (ix2 (0 : Fin 1) q))
        + ∑ k : Fin 128, x (ix2 p k) * wr (ix2 k q)) 0

/-- The layer's output matrix. -/
def dense (R : Nat) (agg x : Mat R 128) (wl wr : Mat 128 128) (b : Mat 1 128) : Mat R 128 :=
  fun i => denseAt agg x wl wr b (i 0) (i 1)

/-- The output matrix at the index built from row p and column q. -/
theorem dense_ix2 {R : Nat} (agg x : Mat R 128) (wl wr : Mat 128 128) (b : Mat 1 128) (p : Fin R) (q : Fin 128) :
    dense R agg x wl wr b (ix2 p q) = denseAt agg x wl wr b p q := rfl

/-- Rows of the output depend on the same rows of the two feature matrices only: if agg' and x' are the rows
    off + p (p < R') of agg and x, then row p of the layer on agg', x' is row off + p of the layer on agg, x. -/
theorem dense_rows {R R' : Nat} (off : Nat) (agg x : Mat R 128) (agg' x' : Mat R' 128) (wl wr : Mat 128 128) (b : Mat 1 128)
    (p : Fin R') (p' : Fin R) (hp : p'.val = off + p.val)
    (hagg : ∀ k : Fin 128, agg' (ix2 p k) = agg (ix2 p' k)) (hx : ∀ k : Fin 128, x' (ix2 p k) = x (ix2 p' k)) (q : Fin 128) :
    denseAt agg' x' wl wr b p q = denseAt agg x wl wr b p' q := by
  unfold denseAt
  simp only [hagg, hx]

end Cert.Spec

end
-- ==== Proof.KernelValue.lean ====
/-
  The idealized kernel's result as one function of its thirteen argument arrays.

  The program alternates stretches of host operations with three tiled launches of the dense layer. The first
  stretch slices the edge list into its source row and its destination row, aggregates the node features
  along the edges (gather the source rows, add them up at the destinations, divide each row by the larger of the
  destination's edge count and 1), transposes the two weight matrices and reshapes the bias to one row; the launch
  then leaves the layer's output. The next two stretches aggregate the previous launch's output along the same
  edges, and the last stretch projects the third output onto one column.

  Written here: the aggregation and the projection as functions (`aggMean`, `project`); what each stretch leaves in
  the buffers the next launch reads (`stretch0_*` … `stretch3`); that a buffer which a segment does not write
  is found after it as it was before (`keep*`); and, given that each launch leaves `dense` of the five arrays it
  reads, the three outputs and the result (`out1`, `out2`, `out3`, `result`).
-/
import proofs.«158092_j68453188763778_1_alg».proof.Proof.Gen.KernelIdeal.Frame
import proofs.«158092_j68453188763778_1_alg».proof.Proof.Layer
import Idealize.ShloMosaic.Lib.StableHlo.Run

set_option maxRecDepth 16384

noncomputable section

namespace Cert.KernelIdeal.Whole

open Idealize.ShloMosaic Idealize.ShloMosaic.TcCoe Idealize.ShloMosaic.Tactic
open Idealize.SL.Sem Idealize.ShloMosaic.StableHlo
open Cert.KernelIdeal Cert.KernelIdeal.Gen Cert.Spec

/-! ## The host-side functions -/

section Functions
variable {F : FTy → Type} [FloatOps F]

/-- The edges' source nodes: row 0 of the edge list. -/
def srcOf (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- The edges' destination nodes: row 1 of the edge list. -/
def dstOf (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- Mean aggregation along the edges: row n of the result is the sum of the rows feat(src j) over the edges j
    with dst j = n (a negative source index counted from the end), divided by max (number of such edges, 1). -/
def aggMean (feat : (⟨S100000x128, .f32⟩ : BufTy).Contents (Elt F)) (src dst : (⟨S1600000, .i32⟩ : BufTy).Contents (Elt F)) :
    (⟨S100000x128, .f32⟩ : BufTy).Contents (Elt F) :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S100000x128_S1600000x1_S1600000x128_1_0_n_n_0_1_1128 feat
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32)))
            src))))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 dst)
            (broadcastInDim S1600000 ![] bcast_S_S1600000 (constant S_ .f32 0x3F800000#32)))
          (broadcastInDim S100000 ![] bcast_S_S100000 (constant S_ .f32 0x3F800000#32)))))

/-- A weight matrix transposed. -/
def weightT (w : (⟨S128x128, .f32⟩ : BufTy).Contents (Elt F)) : (⟨S128x128, .f32⟩ : BufTy).Contents (Elt F) :=
  transpose S128x128 [1, 0] w transposes_S128x128_S128x128_1_0

/-- A bias vector as a matrix of one row. -/
def biasRow (b : (⟨S128, .f32⟩ : BufTy).Contents (Elt F)) : (⟨S1x128, .f32⟩ : BufTy).Contents (Elt F) :=
  shapeCast S1x128 b shapeCasts_S128_S1x128

/-- The closing projection: h · wᵀ + b, one number per node. -/
def project (h : (⟨S100000x128, .f32⟩ : BufTy).Contents (Elt F)) (w : (⟨S1x128, .f32⟩ : BufTy).Contents (Elt F))
    (b : (⟨S1, .f32⟩ : BufTy).Contents (Elt F)) : (⟨S100000, .f32⟩ : BufTy).Contents (Elt F) :=
  shapeCast S100000
    (addf (Host.dotGeneral dot_S100000x128_S128x1_S100000x1_1_0_0_1_n_n none h (transpose S128x1 [1, 0] w transposes_S1x128_S128x1_1_0))
      (broadcastInDim S100000x1 ![0, 1] bcast_S1x1_S100000x1_0_1 (broadcastInDim S1x1 ![1] bcast_S1_S1x1_1 b)))
    shapeCasts_S100000x1_S100000

end Functions

/-! ## A buffer no operation of a stretch writes is found after the stretch as before it -/

/-- No operation of the named stretch writes the buffer in the goal: each operation writes its one result buffer,
    which is another. -/
macro "not_written " ops:ident : tactic => `(tactic|
  exact List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

section Run
variable {F : FTy → Type} [FloatOps F]
variable (m : (ℓ : Loc nD τ sig) → Buf (Elt F) ℓ) (ρ : Dev nD → PrngReg) (c : Dev nD)

/-! ### The first stretch -/

theorem stretch0_src : W1 m ρ c (Proc.devRef .tc main_v1) = srcOf (m ((c : Thread nD τ).loc main_arg1)) := by
  show StableHlo.after hostOps0 (W0 m ρ c) (Proc.devRef .tc main_v1) = _
  after_results_simp
  rfl

theorem stretch0_dst : W1 m ρ c (Proc.devRef .tc main_v3) = dstOf (m ((c : Thread nD τ).loc main_arg1)) := by
  show StableHlo.after hostOps0 (W0 m ρ c) (Proc.devRef .tc main_v3) = _
  after_results_simp
  rfl

theorem stretch0_agg : W1 m ρ c (Proc.devRef .tc main_v22)
    = aggMean (m ((c : Thread nD τ).loc main_arg0)) (srcOf (m ((c : Thread nD τ).loc main_arg1))) (dstOf (m ((c : Thread nD τ).loc main_arg1))) := by
  show StableHlo.after hostOps0 (W0 m ρ c) (Proc.devRef .tc main_v22) = _
  after_results_simp
  rfl

theorem stretch0_wl : W1 m ρ c (Proc.devRef .tc main_v23) = weightT (m ((c : Thread nD τ).loc main_arg2)) := by
  show StableHlo.after hostOps0 (W0 m ρ c) (Proc.devRef .tc main_v23) = _
  after_results_simp
  rfl

theorem stretch0_b : W1 m ρ c (Proc.devRef .tc main_v24) = biasRow (m ((c : Thread nD τ).loc main_arg3)) := by
  show StableHlo.after hostOps0 (W0 m ρ c) (Proc.devRef .tc main_v24) = _
  after_results_simp
  rfl

theorem stretch0_wr : W1 m ρ c (Proc.devRef .tc main_v25) = weightT (m ((c : Thread nD τ).loc main_arg4)) := by
  show StableHlo.after hostOps0 (W0 m ρ c) (Proc.devRef .tc main_v25) = _
  after_results_simp
  rfl

/-- The first stretch writes no argument. -/
theorem keep0 (b : Ref sig .tc) (h : ∀ op ∈ (hostOps0 : List (HloOp τ sig (Elt F))), Proc.devRef .tc b ∉ op.writes) :
    W1 m ρ c (Proc.devRef .tc b) = W0 m ρ c (Proc.devRef .tc b) :=
  StableHlo.after_of_forall_not_mem _ _ h

theorem keep1 (b : Ref sig .tc) (h : ∀ op ∈ (hostOps1 : List (HloOp τ sig (Elt F))), Proc.devRef .tc b ∉ op.writes) :
    W3 m ρ c (Proc.devRef .tc b) = W2 m ρ c (Proc.devRef .tc b) :=
  StableHlo.after_of_forall_not_mem _ _ h

theorem keep2 (b : Ref sig .tc) (h : ∀ op ∈ (hostOps2 : List (HloOp τ sig (Elt F))), Proc.devRef .tc b ∉ op.writes) :
    W5 m ρ c (Proc.devRef .tc b) = W4 m ρ c (Proc.devRef .tc b) :=
  StableHlo.after_of_forall_not_mem _ _ h

theorem stretch0_x : W1 m ρ c (Proc.devRef .tc main_arg0) = m ((c : Thread nD τ).loc main_arg0) :=
  keep0 m ρ c main_arg0 (by not_written hostOps0)

/-! ### Buffers carried across the first launch and the second stretch -/

theorem src_W2 : W2 m ρ c (Proc.devRef .tc main_v1) = srcOf (m ((c : Thread nD τ).loc main_arg1)) :=
  (W2_of_ne m ρ c main_v1 (by decide)).trans (stretch0_src m ρ c)
theorem dst_W2 : W2 m ρ c (Proc.devRef .tc main_v3) = dstOf (m ((c : Thread nD τ).loc main_arg1)) :=
  (W2_of_ne m ρ c main_v3 (by decide)).trans (stretch0_dst m ρ c)
theorem arg5_W2 : W2 m ρ c (Proc.devRef .tc main_arg5) = m ((c : Thread nD τ).loc main_arg5) :=
  (W2_of_ne m ρ c main_arg5 (by decide)).trans (keep0 m ρ c main_arg5 (by not_written hostOps0))
theorem arg6_W2 : W2 m ρ c (Proc.devRef .tc main_arg6) = m ((c : Thread nD τ).loc main_arg6) :=
  (W2_of_ne m ρ c main_arg6 (by decide)).trans (keep0 m ρ c main_arg6 (by not_written hostOps0))
theorem arg7_W2 : W2 m ρ c (Proc.devRef .tc main_arg7) = m ((c : Thread nD τ).loc main_arg7) :=
  (W2_of_ne m ρ c main_arg7 (by decide)).trans (keep0 m ρ c main_arg7 (by not_written hostOps0))

/-! ### The second stretch -/

theorem stretch1_agg : W3 m ρ c (Proc.devRef .tc main_v45)
    = aggMean (W2 m ρ c (Proc.devRef .tc main_v26)) (srcOf (m ((c : Thread nD τ).loc main_arg1))) (dstOf (m ((c : Thread nD τ).loc main_arg1))) := by
  show StableHlo.after hostOps1 (W2 m ρ c) (Proc.devRef .tc main_v45) = _
  after_results_simp
  rw [src_W2 m ρ c, dst_W2 m ρ c]
  rfl

theorem stretch1_wl : W3 m ρ c (Proc.devRef .tc main_v46) = weightT (m ((c : Thread nD τ).loc main_arg5)) := by
  show StableHlo.after hostOps1 (W2 m ρ c) (Proc.devRef .tc main_v46) = _
  after_results_simp
  rw [arg5_W2 m ρ c]
  rfl

theorem stretch1_b : W3 m ρ c (Proc.devRef .tc main_v47) = biasRow (m ((c : Thread nD τ).loc main_arg6)) := by
  show StableHlo.after hostOps1 (W2 m ρ c) (Proc.devRef .tc main_v47) = _
  after_results_simp
  rw [arg6_W2 m ρ c]
  rfl

theorem stretch1_wr : W3 m ρ c (Proc.devRef .tc main_v48) = weightT (m ((c : Thread nD τ).loc main_arg7)) := by
  show StableHlo.after hostOps1 (W2 m ρ c) (Proc.devRef .tc main_v48) = _
  after_results_simp
  rw [arg7_W2 m ρ c]
  rfl

theorem stretch1_x : W3 m ρ c (Proc.devRef .tc main_v26) = W2 m ρ c (Proc.devRef .tc main_v26) :=
  keep1 m ρ c main_v26 (by not_written hostOps1)

/-! ### Buffers carried across the second launch and the third stretch -/

theorem src_W4 : W4 m ρ c (Proc.devRef .tc main_v1) = srcOf (m ((c : Thread nD τ).loc main_arg1)) :=
  (W4_of_ne m ρ c main_v1 (by decide)).trans ((keep1 m ρ c main_v1 (by not_written hostOps1)).trans (src_W2 m ρ c))
theorem dst_W4 : W4 m ρ c (Proc.devRef .tc main_v3) = dstOf (m ((c : Thread nD τ).loc main_arg1)) :=
  (W4_of_ne m ρ c main_v3 (by decide)).trans ((keep1 m ρ c main_v3 (by not_written hostOps1)).trans (dst_W2 m ρ c))
theorem arg8_W4 : W4 m ρ c (Proc.devRef .tc main_arg8) = m ((c : Thread nD τ).loc main_arg8) :=
  (W4_of_ne m ρ c main_arg8 (by decide)).trans ((keep1 m ρ c main_arg8 (by not_written hostOps1)).trans
    ((W2_of_ne m ρ c main_arg8 (by decide)).trans (keep0 m ρ c main_arg8 (by not_written hostOps0))))
theorem arg9_W4 : W4 m ρ c (Proc.devRef .tc main_arg9) = m ((c : Thread nD τ).loc main_arg9) :=
  (W4_of_ne m ρ c main_arg9 (by decide)).trans ((keep1 m ρ c main_arg9 (by not_written hostOps1)).trans
    ((W2_of_ne m ρ c main_arg9 (by decide)).trans (keep0 m ρ c main_arg9 (by not_written hostOps0))))
theorem arg10_W4 : W4 m ρ c (Proc.devRef .tc main_arg10) = m ((c : Thread nD τ).loc main_arg10) :=
  (W4_of_ne m ρ c main_arg10 (by decide)).trans ((keep1 m ρ c main_arg10 (by not_written hostOps1)).trans
    ((W2_of_ne m ρ c main_arg10 (by decide)).trans (keep0 m ρ c main_arg10 (by not_written hostOps0))))

/-! ### The third stretch -/

theorem stretch2_agg : W5 m ρ c (Proc.devRef .tc main_v68)
    = aggMean (W4 m ρ c (Proc.devRef .tc main_v49)) (srcOf (m ((c : Thread nD τ).loc main_arg1))) (dstOf (m ((c : Thread nD τ).loc main_arg1))) := by
  show StableHlo.after hostOps2 (W4 m ρ c) (Proc.devRef .tc main_v68) = _
  after_results_simp
  rw [src_W4 m ρ c, dst_W4 m ρ c]
  rfl

theorem stretch2_wl : W5 m ρ c (Proc.devRef .tc main_v69) = weightT (m ((c : Thread nD τ).loc main_arg8)) := by
  show StableHlo.after hostOps2 (W4 m ρ c) (Proc.devRef .tc main_v69) = _
  after_results_simp
  rw [arg8_W4 m ρ c]
  rfl

theorem stretch2_b : W5 m ρ c (Proc.devRef .tc main_v70) = biasRow (m ((c : Thread nD τ).loc main_arg9)) := by
  show StableHlo.after hostOps2 (W4 m ρ c) (Proc.devRef .tc main_v70) = _
  after_results_simp
  rw [arg9_W4 m ρ c]
  rfl

theorem stretch2_wr : W5 m ρ c (Proc.devRef .tc main_v71) = weightT (m ((c : Thread nD τ).loc main_arg10)) := by
  show StableHlo.after hostOps2 (W4 m ρ c) (Proc.devRef .tc main_v71) = _
  after_results_simp
  rw [arg10_W4 m ρ c]
  rfl

theorem stretch2_x : W5 m ρ c (Proc.devRef .tc main_v49) = W4 m ρ c (Proc.devRef .tc main_v49) :=
  keep2 m ρ c main_v49 (by not_written hostOps2)

/-! ### The closing stretch -/

theorem arg11_W6 : W6 m ρ c (Proc.devRef .tc main_arg11) = m ((c : Thread nD τ).loc main_arg11) :=
  (W6_of_ne m ρ c main_arg11 (by decide)).trans ((keep2 m ρ c main_arg11 (by not_written hostOps2)).trans
    ((W4_of_ne m ρ c main_arg11 (by decide)).trans ((keep1 m ρ c main_arg11 (by not_written hostOps1)).trans
      ((W2_of_ne m ρ c main_arg11 (by decide)).trans (keep0 m ρ c main_arg11 (by not_written hostOps0))))))
theorem arg12_W6 : W6 m ρ c (Proc.devRef .tc main_arg12) = m ((c : Thread nD τ).loc main_arg12) :=
  (W6_of_ne m ρ c main_arg12 (by decide)).trans ((keep2 m ρ c main_arg12 (by not_written hostOps2)).trans
    ((W4_of_ne m ρ c main_arg12 (by decide)).trans ((keep1 m ρ c main_arg12 (by not_written hostOps1)).trans
      ((W2_of_ne m ρ c main_arg12 (by decide)).trans (keep0 m ρ c main_arg12 (by not_written hostOps0))))))

theorem stretch3 : W7 m ρ c (Proc.devRef .tc main_v78)
    = project (W6 m ρ c (Proc.devRef .tc main_v72)) (m ((c : Thread nD τ).loc main_arg11)) (m ((c : Thread nD τ).loc main_arg12)) := by
  show StableHlo.after hostOps3 (W6 m ρ c) (Proc.devRef .tc main_v78) = _
  after_results_simp
  rw [arg11_W6 m ρ c, arg12_W6 m ρ c]
  rfl

end Run

/-! ## The three outputs and the result, on the extended reals -/

section Outputs

/-- One layer of the network: the previous features aggregated along the edges, and the previous features themselves,
    through the dense layer. -/
def layerOf (prev : (⟨S100000x128, .f32⟩ : BufTy).Contents (Elt Ideal)) (e : (⟨S2x1600000, .i32⟩ : BufTy).Contents (Elt Ideal))
    (wl : (⟨S128x128, .f32⟩ : BufTy).Contents (Elt Ideal)) (b : (⟨S128, .f32⟩ : BufTy).Contents (Elt Ideal))
    (wr : (⟨S128x128, .f32⟩ : BufTy).Contents (Elt Ideal)) : (⟨S100000x128, .f32⟩ : BufTy).Contents (Elt Ideal) :=
  dense 100000 (aggMean (F := Ideal) prev (srcOf e) (dstOf e)) prev (weightT wl) (weightT wr) (biasRow b)

variable (m : (ℓ : Loc nD τ sig) → Buf (Elt Ideal) ℓ) (ρ : Dev nD → PrngReg) (c : Dev nD)

/- Each launch leaves in its output array the dense layer of the five arrays it reads, as it finds them:
   the three facts the rest of this section takes as given. -/
variable
  (hR0 : ∀ (V : (c : Dev nD) → (b : Ref sig .tc) → Buf (Elt Ideal) ((c : Thread nD τ).loc b)) (c : Dev nD),
    (dat0 (F := Ideal) V c).arrAt 5 cfg0.N = dense 100000 (V c main_v22) (V c main_arg0) (V c main_v23) (V c main_v25) (V c main_v24))
  (hR1 : ∀ (V : (c : Dev nD) → (b : Ref sig .tc) → Buf (Elt Ideal) ((c : Thread nD τ).loc b)) (c : Dev nD),
    (dat1 (F := Ideal) V c).arrAt 5 cfg1.N = dense 100000 (V c main_v45) (V c main_v26) (V c main_v46) (V c main_v48) (V c main_v47))
  (hR2 : ∀ (V : (c : Dev nD) → (b : Ref sig .tc) → Buf (Elt Ideal) ((c : Thread nD τ).loc b)) (c : Dev nD),
    (dat2 (F := Ideal) V c).arrAt 5 cfg2.N = dense 100000 (V c main_v68) (V c main_v49) (V c main_v69) (V c main_v71) (V c main_v70))

include hR0 in
/-- After the first launch its output array holds the first layer of the arguments. -/
theorem out1 : W2 m ρ c (Proc.devRef .tc main_v26) = layerOf (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ?_
  rw [hR0 (V1 m ρ) c]
  show dense 100000 (W1 m ρ c (Proc.devRef .tc main_v22)) (W1 m ρ c (Proc.devRef .tc main_arg0)) (W1 m ρ c (Proc.devRef .tc main_v23))
    (W1 m ρ c (Proc.devRef .tc main_v25)) (W1 m ρ c (Proc.devRef .tc main_v24)) = _
  rw [stretch0_agg m ρ c, stretch0_x m ρ c, stretch0_wl m ρ c, stretch0_wr m ρ c, stretch0_b m ρ c]
  rfl

include hR1 in
/-- After the second launch its output array holds the second layer, of the first launch's output. -/
theorem out2 : W4 m ρ c (Proc.devRef .tc main_v49)
    = layerOf (W2 m ρ c (Proc.devRef .tc main_v26)) (m ((c : Thread nD τ).loc main_arg1)) (m ((c : Thread nD τ).loc main_arg5)) (m ((c : Thread nD τ).loc main_arg6)) (m ((c : Thread nD τ).loc main_arg7)) := by
  refine (W4_arr m ρ c 5).trans ?_
  rw [hR1 (V3 m ρ) c]
  show dense 100000 (W3 m ρ c (Proc.devRef .tc main_v45)) (W3 m ρ c (Proc.devRef .tc main_v26)) (W3 m ρ c (Proc.devRef .tc main_v46))
    (W3 m ρ c (Proc.devRef .tc main_v48)) (W3 m ρ c (Proc.devRef .tc main_v47)) = _
  rw [stretch1_agg m ρ c, stretch1_x m ρ c, stretch1_wl m ρ c, stretch1_wr m ρ c, stretch1_b m ρ c]
  rfl

include hR2 in
/-- After the third launch its output array holds the third layer, of the second launch's output. -/
theorem out3 : W6 m ρ c (Proc.devRef .tc main_v72)
    = layerOf (W4 m ρ c (Proc.devRef .tc main_v49)) (m ((c : Thread nD τ).loc main_arg1)) (m ((c : Thread nD τ).loc main_arg8)) (m ((c : Thread nD τ).loc main_arg9)) (m ((c : Thread nD τ).loc main_arg10)) := by
  refine (W6_arr m ρ c 5).trans ?_
  rw [hR2 (V5 m ρ) c]
  show dense 100000 (W5 m ρ c (Proc.devRef .tc main_v68)) (W5 m ρ c (Proc.devRef .tc main_v49)) (W5 m ρ c (Proc.devRef .tc main_v69))
    (W5 m ρ c (Proc.devRef .tc main_v71)) (W5 m ρ c (Proc.devRef .tc main_v70)) = _
  rw [stretch2_agg m ρ c, stretch2_x m ρ c, stretch2_wl m ρ c, stretch2_wr m ρ c, stretch2_b m ρ c]
  rfl

/-- The network as one function of the thirteen arguments: three layers along the same edges, then the projection. -/
def network (a0 : (⟨S100000x128, .f32⟩ : BufTy).Contents (Elt Ideal)) (a1 : (⟨S2x1600000, .i32⟩ : BufTy).Contents (Elt Ideal))
    (a2 : (⟨S128x128, .f32⟩ : BufTy).Contents (Elt Ideal)) (a3 : (⟨S128, .f32⟩ : BufTy).Contents (Elt Ideal))
    (a4 a5 : (⟨S128x128, .f32⟩ : BufTy).Contents (Elt Ideal)) (a6 : (⟨S128, .f32⟩ : BufTy).Contents (Elt Ideal))
    (a7 a8 : (⟨S128x128, .f32⟩ : BufTy).Contents (Elt Ideal)) (a9 : (⟨S128, .f32⟩ : BufTy).Contents (Elt Ideal))
    (a10 : (⟨S128x128, .f32⟩ : BufTy).Contents (Elt Ideal)) (a11 : (⟨S1x128, .f32⟩ : BufTy).Contents (Elt Ideal))
    (a12 : (⟨S1, .f32⟩ : BufTy).Contents (Elt Ideal)) : (⟨S100000, .f32⟩ : BufTy).Contents (Elt Ideal) :=
  project (F := Ideal) (layerOf (layerOf (layerOf a0 a1 a2 a3 a4) a1 a5 a6 a7) a1 a8 a9 a10) a11 a12

include hR0 hR1 hR2 in
/-- The result buffer's final contents are the network of the arguments. -/
theorem result : W7 m ρ c (Proc.devRef .tc main_v78)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [stretch3 m ρ c, out3 m ρ c hR2, out2 m ρ c hR1, out1 m ρ c hR0]
  rfl

end Outputs

end Cert.KernelIdeal.Whole

end
-- ==== Proof.LibPlainDot.lean ====
/-
  A matrix product with the plain dimension numbers, read at one entry of its result on the extended reals.

  The left operand is [M, K], contracted on its second axis against the first axis of the right operand [K, N];
  there is no batch axis. Entry (p, q) of the product is the sum over k of lhs (p, k) · rhs (k, q). This holds for
  the vector unit's product into a zero accumulator (the zero word denotes 0, and 0 + s = s) and for the host's
  `dot_general`, for all extents M, K, N. A record of dimension numbers is determined by its six lists of axes
  (its remaining field is a proof), so the statements are about `DotDims.plain M K N` and apply to every record
  that lists the same axes.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The contraction index of the plain product is its one coordinate, k < K. -/
abbrev kEquiv (M K N : Nat) : (DotDims.plain M K N).contr.Idx ≃ Fin K :=
  contrEquiv1 (DotDims.plain M K N) K rfl rfl

/-- The left operand's row axis is the result's first axis: it reads the result entry's row. -/
theorem lhs_row (j : (⟨2, ![M, N]⟩ : Shape).Idx) (κ : (DotDims.plain M K N).contr.Idx) :
    ((DotDims.plain M K N).lhsIdx j κ 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column axis is the contracted one: it reads the contraction coordinate. -/
theorem lhs_col (j : (⟨2, ![M, N]⟩ : Shape).Idx) (k : Fin K) :
    ((DotDims.plain M K N).lhsIdx j ((kEquiv M K N).symm k) 1).val = k.val :=
  ((DotDims.plain M K N).lhsIdx_val_of_single rfl j _).trans (contrEquiv1_symm_val (DotDims.plain M K N) K rfl rfl k)

/-- The right operand's row axis is the contracted one. -/
theorem rhs_row (j : (⟨2, ![M, N]⟩ : Shape).Idx) (k : Fin K) :
    ((DotDims.plain M K N).rhsIdx j ((kEquiv M K N).symm k) 0).val = k.val :=
  ((DotDims.plain M K N).rhsIdx_val_of_single rfl j _).trans (contrEquiv1_symm_val (DotDims.plain M K N) K rfl rfl k)

/-- The right operand's column axis is the result's second axis: it reads the result entry's column. -/
theorem rhs_col (j : (⟨2, ![M, N]⟩ : Shape).Idx) (κ : (DotDims.plain M K N).contr.Idx) :
    ((DotDims.plain M K N).rhsIdx j κ 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At result entry (p, q) and contraction coordinate k the left operand is read at (p, k) -/
theorem lhsIdx_plain (p : Fin M) (q : Fin N) (k : Fin K) :
    (DotDims.plain M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (k, q). -/
theorem rhsIdx_plain (p : Fin M) (q : Fin N) (k : Fin K) :
    (DotDims.plain M K N).rhsIdx (ix2 p q) ((kEquiv M K N).symm k) = ix2 k q :=
  funext fun a => Fin.ext (by
    match a with
    | ⟨0, _⟩ => exact rhs_row (ix2 p q) k
    | ⟨1, _⟩ => exact rhs_col (ix2 p q) _)

/-- The sum over the contraction index of the two operands' entries is the sum over k < K of lhs (p, k) · rhs (k, q). -/
theorem sum_contr {φ₁ φ₂ : FTy} (lhs : FVec Ideal ⟨2, ![M, K]⟩ φ₁) (rhs : FVec Ideal ⟨2, ![K, N]⟩ φ₂)
    (p : Fin M) (q : Fin N) :
    (∑ κ : (DotDims.plain M K N).contr.Idx,
        lhs ((DotDims.plain M K N).lhsIdx (ix2 p q) κ) * rhs ((DotDims.plain M K N).rhsIdx (ix2 p q) κ) : EReal)
      = ∑ k : Fin K, lhs (ix2 p k) * rhs (ix2 k q) := by
  rw [← Equiv.sum_comp (kEquiv M K N).symm]
  exact Finset.sum_congr rfl fun k _ =>
    congrArg₂ (fun a b => (lhs a * rhs b : EReal)) (lhsIdx_plain p q k) (rhsIdx_plain p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.LibPlainDot

end
-- ==== Proof.Region0.lean ====
/-
  The first of the three tiled launches of the dense layer, read as one function of whole arrays.

  The launch visits 25 grid points. Point t stages rows 4000·t … 4000·t + 3999 of the aggregated features and of the
  node features, together with the whole of the two weight matrices and of the bias row; its body computes one tile
  of 4000 rows, and that tile is written back to rows 4000·t … 4000·t + 3999 of the output array. The claim of this
  file (`final`) is that after the last point the output array is the layer `dense` of the five input arrays as the
  launch finds them.

  The steps. (1) The tile the body computes is the layer of the five staged blocks (`pay_eq`). (2) The index maps
  send point t to block row t for the three arrays tiled by rows and to block (0, 0) for the three arrays staged
  whole (`idx_facts`). (3) Hence the staged blocks are the stated rows of their arrays (`agg_rows`, `x_rows`) or
  the arrays themselves (`wl_whole`, `b_whole`, `wr_whole`); and since row p of the layer reads row p of the two
  feature matrices only (`dense_tile`), what point t writes back is rows 4000·t … 4000·t + 3999 of the layer of the
  whole arrays (`flushed_eq`). (4) Row r of the output lies in the block of point r / 4000, and every point writes
  back (`cover`). (5) An array every index of which some write-back covers, each write-back being a block of one
  function G, ends as G (`final`).
-/
import proofs.«158092_j68453188763778_1_alg».proof.Proof.Gen.KernelIdeal.Frame
import proofs.«158092_j68453188763778_1_alg».proof.Proof.Layer
import proofs.«158092_j68453188763778_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Cert.KernelIdeal Cert.KernelIdeal.Gen Cert.Spec Idealize.ShloMosaic Idealize.ShloMosaic.TcCoe Idealize.SL.Sem Idealize.ShloMosaic.ValueIdx
open Idealize.ShloMosaic.Pipeline (Dat)

/-! ## One tile of the layer -/

/-- The body's value, as a function of the five blocks it loads, is the dense layer of those blocks. At row p and
    column q: a reshape to the same shape changes nothing; the first product, into a zero accumulator, is
    Σ_k x0(p,k) · x2(k,q) (its dimension numbers are the plain ones: contract the left operand's columns against the
    right operand's rows, no batch axis); the bias row broadcast over the 4000 rows reads x3(0,q); the second product
    is Σ_k x1(p,k) · x4(k,q); and the final maximum is against the zero word, which denotes 0. The two additions are
    taken in the layer's order, so nothing is regrouped. -/
theorem pay_eq (x0 x1 : Vec Ideal S4000x128 .f32) (x2 x4 : Vec Ideal S128x128 .f32) (x3 : Vec Ideal S1x128 .f32) :
    k0_pay1 (F := Ideal) x0 x1 x2 x3 x4 = dense 4000 x0 x1 x2 x4 x3 := by
  funext j
  obtain ⟨p, q, rfl⟩ : ∃ (p : Fin 4000) (q : Fin 128), j = ix2 p q := ⟨j 0, j 1, eq_ix2 j⟩
  rw [dense_ix2]
  unfold k0_pay1 denseAt
  simp only [shapeCast_self]
  show max ((matmul dot_S4000x128_S128x128_S4000x128_1_0_0_1_n_n none x0 x2 (constant (F := Ideal) S4000x128 .f32 0x00000000#32) (ix2 p q)
        + broadcastTo S4000x128 x3 broadcasts_S1x128_S4000x128 (ix2 p q))
      + matmul dot_S4000x128_S128x128_S4000x128_1_0_0_1_n_n none x1 x4 (constant (F := Ideal) S4000x128 .f32 0x00000000#32) (ix2 p q))
      (Ideal.ofBits .f32 0x00000000#32) = _
  rw [Ideal.ofBits_zero_f32]
  refine congrArg₂ max (congrArg₂ (· + ·) (congrArg₂ (· + ·) ?_ ?_) ?_) rfl
  · exact Cert.LibPlainDot.matmul_zero_apply (M := 4000) (K := 128) (N := 128) none x0 x2 p q
  · exact broadcastTo_1b_ab_apply x3 broadcasts_S1x128_S4000x128 p q
  · exact Cert.LibPlainDot.matmul_zero_apply (M := 4000) (K := 128) (N := 128) none x1 x4 p q

/-! ## Tiles of rows of the layer -/

/-- Tile T of the layer is the layer of tile T of the features. If agg' and x' hold rows 4000·T + p (p < 4000) of
    agg and x, then the entry of the layer on agg', x' at (p, q) is the entry of the layer on agg, x at
    (4000·T + p, q): an output row reads the same row of the two feature matrices and all of the weights and bias. -/
theorem dense_tile (T : Nat) (agg x : Mat 100000 128) (agg' x' : Mat 4000 128) (wl wr : Mat 128 128) (b : Mat 1 128)
    (hagg : ∀ (p : Fin 4000) (p' : Fin 100000) (k : Fin 128), p'.val = 4000 * T + p.val → agg' (ix2 p k) = agg (ix2 p' k))
    (hx : ∀ (p : Fin 4000) (p' : Fin 100000) (k : Fin 128), p'.val = 4000 * T + p.val → x' (ix2 p k) = x (ix2 p' k))
    (y : S4000x128.Idx) (i : S100000x128.Idx) (h0 : (i 0).val = 4000 * T + (y 0).val) (h1 : (i 1).val = (y 1).val) :
    dense 4000 agg' x' wl wr b y = dense 100000 agg x wl wr b i := by
  obtain ⟨p, q, rfl⟩ : ∃ (p : Fin 4000) (q : Fin 128), y = ix2 p q := ⟨y 0, y 1, eq_ix2 y⟩
  obtain ⟨p', q', rfl⟩ : ∃ (p' : Fin 100000) (q' : Fin 128), i = ix2 p' q' := ⟨i 0, i 1, eq_ix2 i⟩
  obtain rfl : q' = q := Fin.ext h1
  rw [dense_ix2, dense_ix2]
  exact dense_rows (4000 * T) agg x agg' x' wl wr b p p' h0 (fun k => hagg p p' k h0) (fun k => hx p p' k h0) q'

/-! ## Which block each point stages -/

-- the arrays' contents when the launch begins
variable (V : (c : Dev nD) → (b : Ref sig .tc) → Buf (Elt Ideal) ((c : Thread nD τ).loc b))

/-- The origin of a matrix, written as a list and as a constant function. -/
theorem origin : (![0, 0] : Fin 2 → Nat) = fun _ => 0 := funext fun a => by fin_cases a <;> rfl

/-- The index maps over the 25 points: the aggregated features, the node features and the output are at block
    (t, 0) at point t; the two weight matrices and the bias are at block (0, 0) at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_5.index t (0 : Fin 2) = t.val ∧ win0_5.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The block of aggregated features at point t is rows 4000·t … 4000·t + 3999 of the array: an element of a block
    sits at block index × block extent + its coordinate inside the block, on each axis. -/
theorem agg_rows (c : Dev nD) (t : Fin cfg0.N) (p : Fin 4000) (p' : Fin 100000) (k : Fin 128) (hp : p'.val = 4000 * t.val + p.val) :
    (iblk0 V c 0 t : Vec Ideal S4000x128 .f32) (ix2 p k) = (V c main_v22 : S100000x128.Idx → EReal) (ix2 p' k) := by
  obtain ⟨e0, e1, -⟩ := idx_facts t
  unfold iblk0
  rw [View.read_apply]
  show V c main_v22 (((cfg0.win 0).blk t).view.emb (ix2 p k)) = V c main_v22 (ix2 p' k)
  refine congrArg (V c main_v22) (funext fun a => Fin.ext ?_)
  match a with
  | ⟨0, _⟩ => show win0_0.index t (0 : Fin 2) * 4000 + 1 * p.val = p'.val; rw [e0, hp]; omega
  | ⟨1, _⟩ => show win0_0.index t (1 : Fin 2) * 128 + 1 * k.val = k.val; rw [e1]; omega

/-- The block of node features at point t is the same rows of its array. -/
theorem x_rows (c : Dev nD) (t : Fin cfg0.N) (p : Fin 4000) (p' : Fin 100000) (k : Fin 128) (hp : p'.val = 4000 * t.val + p.val) :
    (iblk0 V c 1 t : Vec Ideal S4000x128 .f32) (ix2 p k) = (V c main_arg0 : S100000x128.Idx → EReal) (ix2 p' k) := by
  obtain ⟨-, -, e0, e1, -⟩ := idx_facts t
  unfold iblk0
  rw [View.read_apply]
  show V c main_arg0 (((cfg0.win 1).blk t).view.emb (ix2 p k)) = V c main_arg0 (ix2 p' k)
  refine congrArg (V c main_arg0) (funext fun a => Fin.ext ?_)
  match a with
  | ⟨0, _⟩ => show win0_1.index t (0 : Fin 2) * 4000 + 1 * p.val = p'.val; rw [e0, hp]; omega
  | ⟨1, _⟩ => show win0_1.index t (1 : Fin 2) * 128 + 1 * k.val = k.val; rw [e1]; omega

/-- The first weight matrix is staged whole at every point: block (0, 0) of extent [128, 128] of a [128, 128] array. -/
theorem wl_whole (c : Dev nD) (t : Fin cfg0.N) :
    (iblk0 V c 2 t : Vec Ideal S128x128 .f32) = (V c main_v23 : S128x128.Idx → EReal) := by
  obtain ⟨-, -, -, -, -, -, e0, e1, -⟩ := idx_facts t
  funext y
  unfold iblk0
  rw [View.read_apply]
  show V c main_v23 (((cfg0.win 2).blk t).view.emb y) = V c main_v23 y
  refine congrArg (V c main_v23) (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- So is the bias row: block (0, 0) of extent [1, 128] of a [1, 128] array. -/
theorem b_whole (c : Dev nD) (t : Fin cfg0.N) :
    (iblk0 V c 3 t : Vec Ideal S1x128 .f32) = (V c main_v24 : S1x128.Idx → EReal) := by
  obtain ⟨-, -, -, -, -, -, -, -, e0, e1, -⟩ := idx_facts t
  funext y
  unfold iblk0
  rw [View.read_apply]
  show V c main_v24 (((cfg0.win 3).blk t).view.emb y) = V c main_v24 y
  refine congrArg (V c main_v24) (funext fun a => Fin.ext ?_)
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- And the second weight matrix. -/
theorem wr_whole (c : Dev nD) (t : Fin cfg0.N) :
    (iblk0 V c 4 t : Vec Ideal S128x128 .f32) = (V c main_v25 : S128x128.Idx → EReal) := by
  obtain ⟨-, -, -, -, -, -, -, -, -, -, e0, e1⟩ := idx_facts t
  funext y
  unfold iblk0
  rw [View.read_apply]
  show V c main_v25 (((cfg0.win 4).blk t).view.emb y) = V c main_v25 y
  refine congrArg (V c main_v25) (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-! ## What a point writes back -/

/-- Point t writes back rows 4000·t … 4000·t + 3999 of the layer of the whole arrays. The body's one store covers its
    whole tile from the origin and its loads read their whole blocks from the origin, so the tile is the body's value
    of the five blocks, which is the layer of the blocks (`pay_eq`); the three blocks staged whole are their arrays,
    the two tiled by rows are rows 4000·t … of theirs, and the output's block sits at the same rows (`dense_tile`). -/
theorem flushed_eq (c : Dev nD) (t : Fin cfg0.N) :
    (dat0 V c).flushed 5 t = ((cfg0.win 5).blk t).view.read (Elt Ideal)
      (dense 100000 (V c main_v22) (V c main_arg0) (V c main_v23) (V c main_v25) (V c main_v24)) := by
  show (cfg0.win 5).cut (grid0.coords t) ((dat0 V c).after 5 t) = _
  rw [after0_5]
  unfold out0_5
  rw [View.canon_unit_zero origin]
  simp only [View.ld_unit_zero (S := S4000x128) origin, View.ld_unit_zero (S := S128x128) origin, View.ld_unit_zero (S := S1x128) origin]
  rw [pay_eq, wl_whole V c t, b_whole V c t, wr_whole V c t]
  obtain ⟨-, -, -, -, e0, e1, -⟩ := idx_facts t
  funext j
  show dense 4000 (iblk0 V c 0 t) (iblk0 V c 1 t) (V c main_v23) (V c main_v25) (V c main_v24) j
    = dense 100000 (V c main_v22) (V c main_arg0) (V c main_v23) (V c main_v25) (V c main_v24) (((cfg0.win 5).blk t).view.emb j)
  refine dense_tile t.val _ _ _ _ _ _ _ (fun p p' k hp => agg_rows V c t p p' k hp) (fun p p' k hp => x_rows V c t p p' k hp) j _ ?_ ?_
  · show win0_5.index t (0 : Fin 2) * 4000 + 1 * (j 0).val = 4000 * t.val + (j 0).val; rw [e0]; omega
  · show win0_5.index t (1 : Fin 2) * 128 + 1 * (j 1).val = (j 1).val; rw [e1]; omega

/-! ## The blocks cover the output -/

/-- An index of the output array is in point t's block iff, on each axis, its coordinate lies in the block's range:
    from block index × block extent, for one block extent. -/
theorem mem_blk (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v26).slice (win0_5.rect t)).set ↔ _
  rw [View.set_slice_whole, Rect.mem_set_unit]
  exact Iff.rfl

/-- Every index of the output is in the block of a point that writes back: row r is in the block of point r / 4000
    (r < 100000 = 25 · 4000, so r / 4000 < 25, and 4000 · (r / 4000) ≤ r < 4000 · (r / 4000) + 4000); each block spans
    all 128 columns; and every point writes its block back. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, e0, e1, -⟩ := idx_facts t
  refine ⟨t, flush0_5 t, ?_⟩
  rw [mem_blk]
  intro a
  match a with
  | ⟨0, _⟩ => show win0_5.index t (0 : Fin 2) * 4000 ≤ (i 0).val ∧ (i 0).val < win0_5.index t (0 : Fin 2) * 4000 + 4000; rw [e0, ht]; omega
  | ⟨1, _⟩ => show win0_5.index t (1 : Fin 2) * 128 ≤ (i 1).val ∧ (i 1).val < win0_5.index t (1 : Fin 2) * 128 + 128; rw [e1]; omega

/-! ## The output array after the launch -/

/-- After the last point the output array is the dense layer of the aggregated features, the node features, the two
    weight matrices and the bias as the launch finds them: every point writes back a block of that one matrix, and
    the blocks cover the array. -/
theorem final (c : Dev nD) :
    (dat0 (F := Ideal) V c).arrAt 5 cfg0.N = dense 100000 (V c main_v22) (V c main_arg0) (V c main_v23) (V c main_v25) (V c main_v24) :=
  (dat0 V c).arrAt_eq_of_cover 5 (dense 100000 (V c main_v22) (V c main_arg0) (V c main_v23) (V c main_v25) (V c main_v24))
    (fun t _ => flushed_eq V c t) cover

end Cert.KernelIdeal.Region0

end
-- ==== Proof.Region1.lean ====
/-
  The second of the three tiled launches of the dense layer, read as one function of whole arrays.

  The launch visits 25 grid points. Point t stages rows 4000·t … 4000·t + 3999 of the aggregated features and of the
  node features, together with the whole of the two weight matrices and of the bias row; its body computes one tile
  of 4000 rows, and that tile is written back to rows 4000·t … 4000·t + 3999 of the output array. The claim of this
  file (`final`) is that after the last point the output array is the layer `dense` of the five input arrays as the
  launch finds them.

  The steps. (1) The tile the body computes is the layer of the five staged blocks (`pay_eq`). (2) The index maps
  send point t to block row t for the three arrays tiled by rows and to block (0, 0) for the three arrays staged
  whole (`idx_facts`). (3) Hence the staged blocks are the stated rows of their arrays (`agg_rows`, `x_rows`) or
  the arrays themselves (`wl_whole`, `b_whole`, `wr_whole`); and since row p of the layer reads row p of the two
  feature matrices only (`dense_tile`), what point t writes back is rows 4000·t … 4000·t + 3999 of the layer of the
  whole arrays (`flushed_eq`). (4) Row r of the output lies in the block of point r / 4000, and every point writes
  back (`cover`). (5) An array every index of which some write-back covers, each write-back being a block of one
  function G, ends as G (`final`).
-/
import proofs.«158092_j68453188763778_1_alg».proof.Proof.Gen.KernelIdeal.Frame
import proofs.«158092_j68453188763778_1_alg».proof.Proof.Layer
import proofs.«158092_j68453188763778_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Cert.KernelIdeal Cert.KernelIdeal.Gen Cert.Spec Idealize.ShloMosaic Idealize.ShloMosaic.TcCoe Idealize.SL.Sem Idealize.ShloMosaic.ValueIdx
open Idealize.ShloMosaic.Pipeline (Dat)

/-! ## One tile of the layer -/

/-- The body's value, as a function of the five blocks it loads, is the dense layer of those blocks. At row p and
    column q: a reshape to the same shape changes nothing; the first product, into a zero accumulator, is
    Σ_k x0(p,k) · x2(k,q) (its dimension numbers are the plain ones: contract the left operand's columns against the
    right operand's rows, no batch axis); the bias row broadcast over the 4000 rows reads x3(0,q); the second product
    is Σ_k x1(p,k) · x4(k,q); and the final maximum is against the zero word, which denotes 0. The two additions are
    taken in the layer's order, so nothing is regrouped. -/
theorem pay_eq (x0 x1 : Vec Ideal S4000x128 .f32) (x2 x4 : Vec Ideal S128x128 .f32) (x3 : Vec Ideal S1x128 .f32) :
    k1_pay1 (F := Ideal) x0 x1 x2 x3 x4 = dense 4000 x0 x1 x2 x4 x3 := by
  funext j
  obtain ⟨p, q, rfl⟩ : ∃ (p : Fin 4000) (q : Fin 128), j = ix2 p q := ⟨j 0, j 1, eq_ix2 j⟩
  rw [dense_ix2]
  unfold k1_pay1 denseAt
  simp only [shapeCast_self]
  show max ((matmul dot_S4000x128_S128x128_S4000x128_1_0_0_1_n_n none x0 x2 (constant (F := Ideal) S4000x128 .f32 0x00000000#32) (ix2 p q)
        + broadcastTo S4000x128 x3 broadcasts_S1x128_S4000x128 (ix2 p q))
      + matmul dot_S4000x128_S128x128_S4000x128_1_0_0_1_n_n none x1 x4 (constant (F := Ideal) S4000x128 .f32 0x00000000#32) (ix2 p q))
      (Ideal.ofBits .f32 0x00000000#32) = _
  rw [Ideal.ofBits_zero_f32]
  refine congrArg₂ max (congrArg₂ (· + ·) (congrArg₂ (· + ·) ?_ ?_) ?_) rfl
  · exact Cert.LibPlainDot.matmul_zero_apply (M := 4000) (K := 128) (N := 128) none x0 x2 p q
  · exact broadcastTo_1b_ab_apply x3 broadcasts_S1x128_S4000x128 p q
  · exact Cert.LibPlainDot.matmul_zero_apply (M := 4000) (K := 128) (N := 128) none x1 x4 p q

/-! ## Tiles of rows of the layer -/

/-- Tile T of the layer is the layer of tile T of the features. If agg' and x' hold rows 4000·T + p (p < 4000) of
    agg and x, then the entry of the layer on agg', x' at (p, q) is the entry of the layer on agg, x at
    (4000·T + p, q): an output row reads the same row of the two feature matrices and all of the weights and bias. -/
theorem dense_tile (T : Nat) (agg x : Mat 100000 128) (agg' x' : Mat 4000 128) (wl wr : Mat 128 128) (b : Mat 1 128)
    (hagg : ∀ (p : Fin 4000) (p' : Fin 100000) (k : Fin 128), p'.val = 4000 * T + p.val → agg' (ix2 p k) = agg (ix2 p' k))
    (hx : ∀ (p : Fin 4000) (p' : Fin 100000) (k : Fin 128), p'.val = 4000 * T + p.val → x' (ix2 p k) = x (ix2 p' k))
    (y : S4000x128.Idx) (i : S100000x128.Idx) (h0 : (i 0).val = 4000 * T + (y 0).val) (h1 : (i 1).val = (y 1).val) :
    dense 4000 agg' x' wl wr b y = dense 100000 agg x wl wr b i := by
  obtain ⟨p, q, rfl⟩ : ∃ (p : Fin 4000) (q : Fin 128), y = ix2 p q := ⟨y 0, y 1, eq_ix2 y⟩
  obtain ⟨p', q', rfl⟩ : ∃ (p' : Fin 100000) (q' : Fin 128), i = ix2 p' q' := ⟨i 0, i 1, eq_ix2 i⟩
  obtain rfl : q' = q := Fin.ext h1
  rw [dense_ix2, dense_ix2]
  exact dense_rows (4000 * T) agg x agg' x' wl wr b p p' h0 (fun k => hagg p p' k h0) (fun k => hx p p' k h0) q'

/-! ## Which block each point stages -/

-- the arrays' contents when the launch begins
variable (V : (c : Dev nD) → (b : Ref sig .tc) → Buf (Elt Ideal) ((c : Thread nD τ).loc b))

/-- The origin of a matrix, written as a list and as a constant function. -/
theorem origin : (![0, 0] : Fin 2 → Nat) = fun _ => 0 := funext fun a => by fin_cases a <;> rfl

/-- The index maps over the 25 points: the aggregated features, the node features and the output are at block
    (t, 0) at point t; the two weight matrices and the bias are at block (0, 0) at every point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_5.index t (0 : Fin 2) = t.val ∧ win1_5.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The block of aggregated features at point t is rows 4000·t … 4000·t + 3999 of the array: an element of a block
    sits at block index × block extent + its coordinate inside the block, on each axis. -/
theorem agg_rows (c : Dev nD) (t : Fin cfg1.N) (p : Fin 4000) (p' : Fin 100000) (k : Fin 128) (hp : p'.val = 4000 * t.val + p.val) :
    (iblk1 V c 0 t : Vec Ideal S4000x128 .f32) (ix2 p k) = (V c main_v45 : S100000x128.Idx → EReal) (ix2 p' k) := by
  obtain ⟨e0, e1, -⟩ := idx_facts t
  unfold iblk1
  rw [View.read_apply]
  show V c main_v45 (((cfg1.win 0).blk t).view.emb (ix2 p k)) = V c main_v45 (ix2 p' k)
  refine congrArg (V c main_v45) (funext fun a => Fin.ext ?_)
  match a with
  | ⟨0, _⟩ => show win1_0.index t (0 : Fin 2) * 4000 + 1 * p.val = p'.val; rw [e0, hp]; omega
  | ⟨1, _⟩ => show win1_0.index t (1 : Fin 2) * 128 + 1 * k.val = k.val; rw [e1]; omega

/-- The block of node features at point t is the same rows of its array. -/
theorem x_rows (c : Dev nD) (t : Fin cfg1.N) (p : Fin 4000) (p' : Fin 100000) (k : Fin 128) (hp : p'.val = 4000 * t.val + p.val) :
    (iblk1 V c 1 t : Vec Ideal S4000x128 .f32) (ix2 p k) = (V c main_v26 : S100000x128.Idx → EReal) (ix2 p' k) := by
  obtain ⟨-, -, e0, e1, -⟩ := idx_facts t
  unfold iblk1
  rw [View.read_apply]
  show V c main_v26 (((cfg1.win 1).blk t).view.emb (ix2 p k)) = V c main_v26 (ix2 p' k)
  refine congrArg (V c main_v26) (funext fun a => Fin.ext ?_)
  match a with
  | ⟨0, _⟩ => show win1_1.index t (0 : Fin 2) * 4000 + 1 * p.val = p'.val; rw [e0, hp]; omega
  | ⟨1, _⟩ => show win1_1.index t (1 : Fin 2) * 128 + 1 * k.val = k.val; rw [e1]; omega

/-- The first weight matrix is staged whole at every point: block (0, 0) of extent [128, 128] of a [128, 128] array. -/
theorem wl_whole (c : Dev nD) (t : Fin cfg1.N) :
    (iblk1 V c 2 t : Vec Ideal S128x128 .f32) = (V c main_v46 : S128x128.Idx → EReal) := by
  obtain ⟨-, -, -, -, -, -, e0, e1, -⟩ := idx_facts t
  funext y
  unfold iblk1
  rw [View.read_apply]
  show V c main_v46 (((cfg1.win 2).blk t).view.emb y) = V c main_v46 y
  refine congrArg (V c main_v46) (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- So is the bias row: block (0, 0) of extent [1, 128] of a [1, 128] array. -/
theorem b_whole (c : Dev nD) (t : Fin cfg1.N) :
    (iblk1 V c 3 t : Vec Ideal S1x128 .f32) = (V c main_v47 : S1x128.Idx → EReal) := by
  obtain ⟨-, -, -, -, -, -, -, -, e0, e1, -⟩ := idx_facts t
  funext y
  unfold iblk1
  rw [View.read_apply]
  show V c main_v47 (((cfg1.win 3).blk t).view.emb y) = V c main_v47 y
  refine congrArg (V c main_v47) (funext fun a => Fin.ext ?_)
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- And the second weight matrix. -/
theorem wr_whole (c : Dev nD) (t : Fin cfg1.N) :
    (iblk1 V c 4 t : Vec Ideal S128x128 .f32) = (V c main_v48 : S128x128.Idx → EReal) := by
  obtain ⟨-, -, -, -, -, -, -, -, -, -, e0, e1⟩ := idx_facts t
  funext y
  unfold iblk1
  rw [View.read_apply]
  show V c main_v48 (((cfg1.win 4).blk t).view.emb y) = V c main_v48 y
  refine congrArg (V c main_v48) (funext fun a => Fin.ext ?_)
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-! ## What a point writes back -/

/-- Point t writes back rows 4000·t … 4000·t + 3999 of the layer of the whole arrays. The body's one store covers its
    whole tile from the origin and its loads read their whole blocks from the origin, so the tile is the body's value
    of the five blocks, which is the layer of the blocks (`pay_eq`); the three blocks staged whole are their arrays,
    the two tiled by rows are rows 4000·t … of theirs, and the output's block sits at the same rows (`dense_tile`). -/
theorem flushed_eq (c : Dev nD) (t : Fin cfg1.N) :
    (dat1 V c).flushed 5 t = ((cfg1.win 5).blk t).view.read (Elt Ideal)
      (dense 100000 (V c main_v45) (V c main_v26) (V c main_v46) (V c main_v48) (V c main_v47)) := by
  show (cfg1.win 5).cut (grid1.coords t) ((dat1 V c).after 5 t) = _
  rw [after1_5]
  unfold out1_5
  rw [View.canon_unit_zero origin]
  simp only [View.ld_unit_zero (S := S4000x128) origin, View.ld_unit_zero (S := S128x128) origin, View.ld_unit_zero (S := S1x128) origin]
  rw [pay_eq, wl_whole V c t, b_whole V c t, wr_whole V c t]
  obtain ⟨-, -, -, -, e0, e1, -⟩ := idx_facts t
  funext j
  show dense 4000 (iblk1 V c 0 t) (iblk1 V c 1 t) (V c main_v46) (V c main_v48) (V c main_v47) j
    = dense 100000 (V c main_v45) (V c main_v26) (V c main_v46) (V c main_v48) (V c main_v47) (((cfg1.win 5).blk t).view.emb j)
  refine dense_tile t.val _ _ _ _ _ _ _ (fun p p' k hp => agg_rows V c t p p' k hp) (fun p p' k hp => x_rows V c t p p' k hp) j _ ?_ ?_
  · show win1_5.index t (0 : Fin 2) * 4000 + 1 * (j 0).val = 4000 * t.val + (j 0).val; rw [e0]; omega
  · show win1_5.index t (1 : Fin 2) * 128 + 1 * (j 1).val = (j 1).val; rw [e1]; omega

/-! ## The blocks cover the output -/

/-- An index of the output array is in point t's block iff, on each axis, its coordinate lies in the block's range:
    from block index × block extent, for one block extent. -/
theorem mem_blk (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v49).slice (win1_5.rect t)).set ↔ _
  rw [View.set_slice_whole, Rect.mem_set_unit]
  exact Iff.rfl

/-- Every index of the output is in the block of a point that writes back: row r is in the block of point r / 4000
    (r < 100000 = 25 · 4000, so r / 4000 < 25, and 4000 · (r / 4000) ≤ r < 4000 · (r / 4000) + 4000); each block spans
    all 128 columns; and every point writes its block back. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, e0, e1, -⟩ := idx_facts t
  refine ⟨t, flush1_5 t, ?_⟩
  rw [mem_blk]
  intro a
  match a with
  | ⟨0, _⟩ => show win1_5.index t (0 : Fin 2) * 4000 ≤ (i 0).val ∧ (i 0).val < win1_5.index t (0 : Fin 2) * 4000 + 4000; rw [e0, ht]; omega
  | ⟨1, _⟩ => show win1_5.index t (1 : Fin 2) * 128 ≤ (i 1).val ∧ (i 1).val < win1_5.index t (1 : Fin 2) * 128 + 128; rw [e1]; omega

/-! ## The output array after the launch -/

/-- After the last point the output array is the dense layer of the aggregated features, the node features, the two
    weight matrices and the bias as the launch finds them: every point writes back a block of that one matrix, and
    the blocks cover the array. -/
theorem final (c : Dev nD) :
    (dat1 (F := Ideal) V c).arrAt 5 cfg1.N = dense 100000 (V c main_v45) (V c main_v26) (V c main_v46) (V c main_v48) (V c main_v47) :=
  (dat1 V c).arrAt_eq_of_cover 5 (dense 100000 (V c main_v45) (V c main_v26) (V c main_v46) (V c main_v48) (V c main_v47))
    (fun t _ => flushed_eq V c t) cover

end Cert.KernelIdeal.Region1

end
-- ==== Proof.Region2.lean ====
/-
  The third of the three tiled launches of the dense layer, read as one function of whole arrays.

  The launch visits 25 grid points. Point t stages rows 4000·t … 4000·t + 3999 of the aggregated features and of the
  node features, together with the whole of the two weight matrices and of the bias row; its body computes one tile
  of 4000 rows, and that tile is written back to rows 4000·t … 4000·t + 3999 of the output array. The claim of this
  file (`final`) is that after the last point the output array is the layer `dense` of the five input arrays as the
  launch finds them.

  The steps. (1) The tile the body computes is the layer of the five staged blocks (`pay_eq`). (2) The index maps
  send point t to block row t for the three arrays tiled by rows and to block (0, 0) for the three arrays staged
  whole (`idx_facts`). (3) Hence the staged blocks are the stated rows of their arrays (`agg_rows`, `x_rows`) or
  the arrays themselves (`wl_whole`, `b_whole`, `wr_whole`); and since row p of the layer reads row p of the two
  feature matrices only (`dense_tile`), what point t writes back is rows 4000·t … 4000·t + 3999 of the layer of the
  whole arrays (`flushed_eq`). (4) Row r of the output lies in the block of point r / 4000, and every point writes
  back (`cover`). (5) An array every index of which some write-back covers, each write-back being a block of one
  function G, ends as G (`final`).
-/
import proofs.«158092_j68453188763778_1_alg».proof.Proof.Gen.KernelIdeal.Frame
import proofs.«158092_j68453188763778_1_alg».proof.Proof.Layer
import proofs.«158092_j68453188763778_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region2

open Cert.KernelIdeal Cert.KernelIdeal.Gen Cert.Spec Idealize.ShloMosaic Idealize.ShloMosaic.TcCoe Idealize.SL.Sem Idealize.ShloMosaic.ValueIdx
open Idealize.ShloMosaic.Pipeline (Dat)

/-! ## One tile of the layer -/

/-- The body's value, as a function of the five blocks it loads, is the dense layer of those blocks. At row p and
    column q: a reshape to the same shape changes nothing; the first product, into a zero accumulator, is
    Σ_k x0(p,k) · x2(k,q) (its dimension numbers are the plain ones: contract the left operand's columns against the
    right operand's rows, no batch axis); the bias row broadcast over the 4000 rows reads x3(0,q); the second product
    is Σ_k x1(p,k) · x4(k,q); and the final maximum is against the zero word, which denotes 0. The two additions are
    taken in the layer's order, so nothing is regrouped. -/
theorem pay_eq (x0 x1 : Vec Ideal S4000x128 .f32) (x2 x4 : Vec Ideal S128x128 .f32) (x3 : Vec Ideal S1x128 .f32) :
    k2_pay1 (F := Ideal) x0 x1 x2 x3 x4 = dense 4000 x0 x1 x2 x4 x3 := by
  funext j
  obtain ⟨p, q, rfl⟩ : ∃ (p : Fin 4000) (q : Fin 128), j = ix2 p q := ⟨j 0, j 1, eq_ix2 j⟩
  rw [dense_ix2]
  unfold k2_pay1 denseAt
  simp only [shapeCast_self]
  show max ((matmul dot_S4000x128_S128x128_S4000x128_1_0_0_1_n_n none x0 x2 (constant (F := Ideal) S4000x128 .f32 0x00000000#32) (ix2 p q)
        + broadcastTo S4000x128 x3 broadcasts_S1x128_S4000x128 (ix2 p q))
      + matmul dot_S4000x128_S128x128_S4000x128_1_0_0_1_n_n none x1 x4 (constant (F := Ideal) S4000x128 .f32 0x00000000#32) (ix2 p q))
      (Ideal.ofBits .f32 0x00000000#32) = _
  rw [Ideal.ofBits_zero_f32]
  refine congrArg₂ max (congrArg₂ (· + ·) (congrArg₂ (· + ·) ?_ ?_) ?_) rfl
  · exact Cert.LibPlainDot.matmul_zero_apply (M := 4000) (K := 128) (N := 128) none x0 x2 p q
  · exact broadcastTo_1b_ab_apply x3 broadcasts_S1x128_S4000x128 p q
  · exact Cert.LibPlainDot.matmul_zero_apply (M := 4000) (K := 128) (N := 128) none x1 x4 p q

/-! ## Tiles of rows of the layer -/

/-- Tile T of the layer is the layer of tile T of the features. If agg' and x' hold rows 4000·T + p (p < 4000) of
    agg and x, then the entry of the layer on agg', x' at (p, q) is the entry of the layer on agg, x at
    (4000·T + p, q): an output row reads the same row of the two feature matrices and all of the weights and bias. -/
theorem dense_tile (T : Nat) (agg x : Mat 100000 128) (agg' x' : Mat 4000 128) (wl wr : Mat 128 128) (b : Mat 1 128)
    (hagg : ∀ (p : Fin 4000) (p' : Fin 100000) (k : Fin 128), p'.val = 4000 * T + p.val → agg' (ix2 p k) = agg (ix2 p' k))
    (hx : ∀ (p : Fin 4000) (p' : Fin 100000) (k : Fin 128), p'.val = 4000 * T + p.val → x' (ix2 p k) = x (ix2 p' k))
    (y : S4000x128.Idx) (i : S100000x128.Idx) (h0 : (i 0).val = 4000 * T + (y 0).val) (h1 : (i 1).val = (y 1).val) :
    dense 4000 agg' x' wl wr b y = dense 100000 agg x wl wr b i := by
  obtain ⟨p, q, rfl⟩ : ∃ (p : Fin 4000) (q : Fin 128), y = ix2 p q := ⟨y 0, y 1, eq_ix2 y⟩
  obtain ⟨p', q', rfl⟩ : ∃ (p' : Fin 100000) (q' : Fin 128), i = ix2 p' q' := ⟨i 0, i 1, eq_ix2 i⟩
  obtain rfl : q' = q := Fin.ext h1
  rw [dense_ix2, dense_ix2]
  exact dense_rows (4000 * T) agg x agg' x' wl wr b p p' h0 (fun k => hagg p p' k h0) (fun k => hx p p' k h0) q'

/-! ## Which block each point stages -/

-- the arrays' contents when the launch begins
variable (V : (c : Dev nD) → (b : Ref sig .tc) → Buf (Elt Ideal) ((c : Thread nD τ).loc b))

/-- The origin of a matrix, written as a list and as a constant function. -/
theorem origin : (![0, 0] : Fin 2 → Nat) = fun _ => 0 := funext fun a => by fin_cases a <;> rfl

/-- The index maps over the 25 points: the aggregated features, the node features and the output are at block
    (t, 0) at point t; the two weight matrices and the bias are at block (0, 0) at every point. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_5.index t (0 : Fin 2) = t.val ∧ win2_5.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- The block of aggregated features at point t is rows 4000·t … 4000·t + 3999 of the array: an element of a block
    sits at block index × block extent + its coordinate inside the block, on each axis. -/
theorem agg_rows (c : Dev nD) (t : Fin cfg2.N) (p : Fin 4000) (p' : Fin 100000) (k : Fin 128) (hp : p'.val = 4000 * t.val + p.val) :
    (iblk2 V c 0 t : Vec Ideal S4000x128 .f32) (ix2 p k) = (V c main_v68 : S100000x128.Idx → EReal) (ix2 p' k) := by
  obtain ⟨e0, e1, -⟩ := idx_facts t
  unfold iblk2
  rw [View.read_apply]
  show V c main_v68 (((cfg2.win 0).blk t).view.emb (ix2 p k)) = V c main_v68 (ix2 p' k)
  refine congrArg (V c main_v68) (funext fun a => Fin.ext ?_)
  match a with
  | ⟨0, _⟩ => show win2_0.index t (0 : Fin 2) * 4000 + 1 * p.val = p'.val; rw [e0, hp]; omega
  | ⟨1, _⟩ => show win2_0.index t (1 : Fin 2) * 128 + 1 * k.val = k.val; rw [e1]; omega

/-- The block of node features at point t is the same rows of its array. -/
theorem x_rows (c : Dev nD) (t : Fin cfg2.N) (p : Fin 4000) (p' : Fin 100000) (k : Fin 128) (hp : p'.val = 4000 * t.val + p.val) :
    (iblk2 V c 1 t : Vec Ideal S4000x128 .f32) (ix2 p k) = (V c main_v49 : S100000x128.Idx → EReal) (ix2 p' k) := by
  obtain ⟨-, -, e0, e1, -⟩ := idx_facts t
  unfold iblk2
  rw [View.read_apply]
  show V c main_v49 (((cfg2.win 1).blk t).view.emb (ix2 p k)) = V c main_v49 (ix2 p' k)
  refine congrArg (V c main_v49) (funext fun a => Fin.ext ?_)
  match a with
  | ⟨0, _⟩ => show win2_1.index t (0 : Fin 2) * 4000 + 1 * p.val = p'.val; rw [e0, hp]; omega
  | ⟨1, _⟩ => show win2_1.index t (1 : Fin 2) * 128 + 1 * k.val = k.val; rw [e1]; omega

/-- The first weight matrix is staged whole at every point: block (0, 0) of extent [128, 128] of a [128, 128] array. -/
theorem wl_whole (c : Dev nD) (t : Fin cfg2.N) :
    (iblk2 V c 2 t : Vec Ideal S128x128 .f32) = (V c main_v69 : S128x128.Idx → EReal) := by
  obtain ⟨-, -, -, -, -, -, e0, e1, -⟩ := idx_facts t
  funext y
  unfold iblk2
  rw [View.read_apply]
  show V c main_v69 (((cfg2.win 2).blk t).view.emb y) = V c main_v69 y
  refine congrArg (V c main_v69) (funext fun a => Fin.ext ?_)
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

/-- So is the bias row: block (0, 0) of extent [1, 128] of a [1, 128] array. -/
theorem b_whole (c : Dev nD) (t : Fin cfg2.N) :
    (iblk2 V c 3 t : Vec Ideal S1x128 .f32) = (V c main_v70 : S1x128.Idx → EReal) := by
  obtain ⟨-, -, -, -, -, -, -, -, e0, e1, -⟩ := idx_facts t
  funext y
  unfold iblk2
  rw [View.read_apply]
  show V c main_v70 (((cfg2.win 3).blk t).view.emb y) = V c main_v70 y
  refine congrArg (V c main_v70) (funext fun a => Fin.ext ?_)
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

/-- And the second weight matrix. -/
theorem wr_whole (c : Dev nD) (t : Fin cfg2.N) :
    (iblk2 V c 4 t : Vec Ideal S128x128 .f32) = (V c main_v71 : S128x128.Idx → EReal) := by
  obtain ⟨-, -, -, -, -, -, -, -, -, -, e0, e1⟩ := idx_facts t
  funext y
  unfold iblk2
  rw [View.read_apply]
  show V c main_v71 (((cfg2.win 4).blk t).view.emb y) = V c main_v71 y
  refine congrArg (V c main_v71) (funext fun a => Fin.ext ?_)
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega

/-! ## What a point writes back -/

/-- Point t writes back rows 4000·t … 4000·t + 3999 of the layer of the whole arrays. The body's one store covers its
    whole tile from the origin and its loads read their whole blocks from the origin, so the tile is the body's value
    of the five blocks, which is the layer of the blocks (`pay_eq`); the three blocks staged whole are their arrays,
    the two tiled by rows are rows 4000·t … of theirs, and the output's block sits at the same rows (`dense_tile`). -/
theorem flushed_eq (c : Dev nD) (t : Fin cfg2.N) :
    (dat2 V c).flushed 5 t = ((cfg2.win 5).blk t).view.read (Elt Ideal)
      (dense 100000 (V c main_v68) (V c main_v49) (V c main_v69) (V c main_v71) (V c main_v70)) := by
  show (cfg2.win 5).cut (grid2.coords t) ((dat2 V c).after 5 t) = _
  rw [after2_5]
  unfold out2_5
  rw [View.canon_unit_zero origin]
  simp only [View.ld_unit_zero (S := S4000x128) origin, View.ld_unit_zero (S := S128x128) origin, View.ld_unit_zero (S := S1x128) origin]
  rw [pay_eq, wl_whole V c t, b_whole V c t, wr_whole V c t]
  obtain ⟨-, -, -, -, e0, e1, -⟩ := idx_facts t
  funext j
  show dense 4000 (iblk2 V c 0 t) (iblk2 V c 1 t) (V c main_v69) (V c main_v71) (V c main_v70) j
    = dense 100000 (V c main_v68) (V c main_v49) (V c main_v69) (V c main_v71) (V c main_v70) (((cfg2.win 5).blk t).view.emb j)
  refine dense_tile t.val _ _ _ _ _ _ _ (fun p p' k hp => agg_rows V c t p p' k hp) (fun p p' k hp => x_rows V c t p p' k hp) j _ ?_ ?_
  · show win2_5.index t (0 : Fin 2) * 4000 + 1 * (j 0).val = 4000 * t.val + (j 0).val; rw [e0]; omega
  · show win2_5.index t (1 : Fin 2) * 128 + 1 * (j 1).val = (j 1).val; rw [e1]; omega

/-! ## The blocks cover the output -/

/-- An index of the output array is in point t's block iff, on each axis, its coordinate lies in the block's range:
    from block index × block extent, for one block extent. -/
theorem mem_blk (t : Fin cfg2.N) (i : S100000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v72).slice (win2_5.rect t)).set ↔ _
  rw [View.set_slice_whole, Rect.mem_set_unit]
  exact Iff.rfl

/-- Every index of the output is in the block of a point that writes back: row r is in the block of point r / 4000
    (r < 100000 = 25 · 4000, so r / 4000 < 25, and 4000 · (r / 4000) ≤ r < 4000 · (r / 4000) + 4000); each block spans
    all 128 columns; and every point writes its block back. -/
theorem cover (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 25 := N_2
  obtain ⟨t, ht⟩ : ∃ t : Fin cfg2.N, t.val = (i 0).val / 4000 := ⟨⟨(i 0).val / 4000, by rw [hN]; omega⟩, rfl⟩
  obtain ⟨-, -, -, -, e0, e1, -⟩ := idx_facts t
  refine ⟨t, flush2_5 t, ?_⟩
  rw [mem_blk]
  intro a
  match a with
  | ⟨0, _⟩ => show win2_5.index t (0 : Fin 2) * 4000 ≤ (i 0).val ∧ (i 0).val < win2_5.index t (0 : Fin 2) * 4000 + 4000; rw [e0, ht]; omega
  | ⟨1, _⟩ => show win2_5.index t (1 : Fin 2) * 128 ≤ (i 1).val ∧ (i 1).val < win2_5.index t (1 : Fin 2) * 128 + 128; rw [e1]; omega

/-! ## The output array after the launch -/

/-- After the last point the output array is the dense layer of the aggregated features, the node features, the two
    weight matrices and the bias as the launch finds them: every point writes back a block of that one matrix, and
    the blocks cover the array. -/
theorem final (c : Dev nD) :
    (dat2 (F := Ideal) V c).arrAt 5 cfg2.N = dense 100000 (V c main_v68) (V c main_v49) (V c main_v69) (V c main_v71) (V c main_v70) :=
  (dat2 V c).arrAt_eq_of_cover 5 (dense 100000 (V c main_v68) (V c main_v49) (V c main_v69) (V c main_v71) (V c main_v70))
    (fun t _ => flushed_eq V c t) cover

end Cert.KernelIdeal.Region2

end
-- ==== Proof.RefLayers.lean ====
/-
  The reference network, layer by layer.

  The reference computes three layers of the same form. Each takes a matrix x of 100000 node features (128 per node),
  averages over every node's incoming edges the features of the edge's source node (the matrix agg), and returns

      out(p,q) = max ( ( Σ_k agg(p,k) · wlᵀ(k,q)  +  b(q) )  +  Σ_k x(p,k) · wrᵀ(k,q) ,  0 ),

  the sums over the 128 input features: two matrix products, the bias added to every row, the two summed, and the
  negative entries cut off at zero. The next layer's x is this layer's out, and its agg is the same average taken of out.

  This file reads that formula off the generated module, which states every operation of the program read at an index.
  For each layer: the operation that produces out, as a function of the program's arguments, IS the function
  `dense` of the shared specification applied to agg, x, the two transposed weight matrices and the bias as a matrix of
  one row (`layer1`, `layer2`, `layer3`). The transposed weights and the aggregation stay closed: nothing here depends
  on what they are, only on where the layer reads them. And the aggregation of the second and third layers is
  the first layer's aggregation, as a function, applied to the previous layer's output (`agg2`, `agg3`).
-/
import proofs.«158092_j68453188763778_1_alg».proof.Proof.Gen.ReferenceIdeal.Read
import proofs.«158092_j68453188763778_1_alg».proof.Proof.Layer

noncomputable section

open scoped BigOperators

namespace Cert.ReferenceIdeal.Layers

open Cert.ReferenceIdeal Cert.ReferenceIdeal.Read Cert.Spec Idealize.ShloMosaic Idealize.ShloMosaic.ValueIdx

/-! The program's arguments: the node features x0, the edge list x1 (row 0 the sources, row 1 the targets), and for each
    of the three layers the weights applied to the aggregate, the bias, and the weights applied to the node itself. -/
variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal)) (x4 : (⟨S128x128, .f32⟩ : BufTy).Contents (Elt Ideal))
  (x5 : (⟨S128x128, .f32⟩ : BufTy).Contents (Elt Ideal)) (x6 : (⟨S128, .f32⟩ : BufTy).Contents (Elt Ideal)) (x7 : (⟨S128x128, .f32⟩ : BufTy).Contents (Elt Ideal))
  (x8 : (⟨S128x128, .f32⟩ : BufTy).Contents (Elt Ideal)) (x9 : (⟨S128, .f32⟩ : BufTy).Contents (Elt Ideal)) (x10 : (⟨S128x128, .f32⟩ : BufTy).Contents (Elt Ideal))

/-! ## The first layer -/

/-- The first layer at row p, column q. Reading the operations from the last to the first: the maximum with the zero matrix
    is the maximum with 0; the two additions are additions of entries; each matrix product at (p,q) is the sum over k of
    the left factor at (p,k) times the right factor at (k,q); the bias broadcast to all rows is, at (p,q), the one-row
    matrix at (0,q). What is left is the formula `denseAt`, term by term. -/
theorem layer1_at (p : Fin 100000) (q : Fin 128) :
    val_main_v31 (F := Ideal) x0 x1 x2 x3 x4 (ix2 p q)
      = denseAt (val_main_v22 (F := Ideal) x0 x1) x0 (val_main_v23 (F := Ideal) x2) (val_main_v28 (F := Ideal) x4)
          (val_main_v25 (F := Ideal) x3) p q := by
  rw [val_main_v31_apply, val_main_v30_apply, val_main_v27_apply, val_main_v24_apply, val_main_v26_apply,
    val_main_v29_apply, val_main_call0_v0_apply, val_main_call0_cst_apply]
  -- where the operations read their operands, for the output index (p,q) and the summation index k
  have eL : ∀ k : Fin 128, lidx_main_v24 (ix2 p q) k = ix2 p k := fun k =>
    funext fun a => by match a with | ⟨0, _⟩ => rfl | ⟨1, _⟩ => rfl
  have eR : ∀ k : Fin 128, ridx_main_v24 (ix2 p q) k = ix2 k q := fun k =>
    funext fun a => by match a with | ⟨0, _⟩ => rfl | ⟨1, _⟩ => rfl
  have eL' : ∀ k : Fin 128, lidx_main_v29 (ix2 p q) k = ix2 p k := fun k =>
    funext fun a => by match a with | ⟨0, _⟩ => rfl | ⟨1, _⟩ => rfl
  have eR' : ∀ k : Fin 128, ridx_main_v29 (ix2 p q) k = ix2 k q := fun k =>
    funext fun a => by match a with | ⟨0, _⟩ => rfl | ⟨1, _⟩ => rfl
  have eB : idx_main_v26 (ix2 p q) = ix2 (0 : Fin 1) q :=
    funext fun a => by match a with | ⟨0, _⟩ => rfl | ⟨1, _⟩ => rfl
  simp only [eL, eR, eL', eR', eB, Ideal.addf_def, Ideal.maximumf_def, Ideal.ofBits_def, Ideal.ofBits_zero_f32]
  rfl

/-- The first layer is `dense` of the aggregated input features, the input features, the two transposed weight
    matrices and the bias row. -/
theorem layer1 :
    val_main_v31 (F := Ideal) x0 x1 x2 x3 x4
      = dense 100000 (val_main_v22 (F := Ideal) x0 x1) x0 (val_main_v23 (F := Ideal) x2) (val_main_v28 (F := Ideal) x4)
          (val_main_v25 (F := Ideal) x3) := by
  funext i
  obtain ⟨p, q, rfl⟩ : ∃ (p : Fin 100000) (q : Fin 128), i = ix2 p q := ⟨i 0, i 1, eq_ix2 i⟩
  exact layer1_at x0 x1 x2 x3 x4 p q

/-! ## The second layer -/

/-- The second layer at row p, column q: the same reading as for the first layer, of the second layer's operations.
    Its node features are the first layer's output, its aggregate the second aggregation. -/
theorem layer2_at (p : Fin 100000) (q : Fin 128) :
    val_main_v63 (F := Ideal) x0 x1 x2 x3 x4 x5 x6 x7 (ix2 p q)
      = denseAt (val_main_v54 (F := Ideal) x0 x1 x2 x3 x4) (val_main_v31 (F := Ideal) x0 x1 x2 x3 x4)
          (val_main_v55 (F := Ideal) x5) (val_main_v60 (F := Ideal) x7) (val_main_v57 (F := Ideal) x6) p q := by
  rw [val_main_v63_apply, val_main_v62_apply, val_main_v59_apply, val_main_v56_apply, val_main_v58_apply,
    val_main_v61_apply, val_main_call1_v0_apply, val_main_call1_cst_apply]
  have eL : ∀ k : Fin 128, lidx_main_v56 (ix2 p q) k = ix2 p k := fun k =>
    funext fun a => by match a with | ⟨0, _⟩ => rfl | ⟨1, _⟩ => rfl
  have eR : ∀ k : Fin 128, ridx_main_v56 (ix2 p q) k = ix2 k q := fun k =>
    funext fun a => by match a with | ⟨0, _⟩ => rfl | ⟨1, _⟩ => rfl
  have eL' : ∀ k : Fin 128, lidx_main_v61 (ix2 p q) k = ix2 p k := fun k =>
    funext fun a => by match a with | ⟨0, _⟩ => rfl | ⟨1, _⟩ => rfl
  have eR' : ∀ k : Fin 128, ridx_main_v61 (ix2 p q) k = ix2 k q := fun k =>
    funext fun a => by match a with | ⟨0, _⟩ => rfl | ⟨1, _⟩ => rfl
  have eB : idx_main_v58 (ix2 p q) = ix2 (0 : Fin 1) q :=
    funext fun a => by match a with | ⟨0, _⟩ => rfl | ⟨1, _⟩ => rfl
  simp only [eL, eR, eL', eR', eB, Ideal.addf_def, Ideal.maximumf_def, Ideal.ofBits_def, Ideal.ofBits_zero_f32]
  rfl

/-- The second layer is `dense` of the second aggregate, the first layer's output, the second layer's transposed
    weight matrices and its bias row. -/
theorem layer2 :
    val_main_v63 (F := Ideal) x0 x1 x2 x3 x4 x5 x6 x7
      = dense 100000 (val_main_v54 (F := Ideal) x0 x1 x2 x3 x4) (val_main_v31 (F := Ideal) x0 x1 x2 x3 x4)
          (val_main_v55 (F := Ideal) x5) (val_main_v60 (F := Ideal) x7) (val_main_v57 (F := Ideal) x6) := by
  funext i
  obtain ⟨p, q, rfl⟩ : ∃ (p : Fin 100000) (q : Fin 128), i = ix2 p q := ⟨i 0, i 1, eq_ix2 i⟩
  exact layer2_at x0 x1 x2 x3 x4 x5 x6 x7 p q

/-! ## The third layer -/

/-- The third layer at row p, column q: the same reading once more. Its node features are the second layer's output,
    its aggregate the third aggregation. -/
theorem layer3_at (p : Fin 100000) (q : Fin 128) :
    val_main_v95 (F := Ideal) x0 x1 x2 x3 x4 x5 x6 x7 x8 x9 x10 (ix2 p q)
      = denseAt (val_main_v86 (F := Ideal) x0 x1 x2 x3 x4 x5 x6 x7) (val_main_v63 (F := Ideal) x0 x1 x2 x3 x4 x5 x6 x7)
          (val_main_v87 (F := Ideal) x8) (val_main_v92 (F := Ideal) x10) (val_main_v89 (F := Ideal) x9) p q := by
  rw [val_main_v95_apply, val_main_v94_apply, val_main_v91_apply, val_main_v88_apply, val_main_v90_apply,
    val_main_v93_apply, val_main_call2_v0_apply, val_main_call2_cst_apply]
  have eL : ∀ k : Fin 128, lidx_main_v88 (ix2 p q) k = ix2 p k := fun k =>
    funext fun a => by match a with | ⟨0, _⟩ => rfl | ⟨1, _⟩ => rfl
  have eR : ∀ k : Fin 128, ridx_main_v88 (ix2 p q) k = ix2 k q := fun k =>
    funext fun a => by match a with | ⟨0, _⟩ => rfl | ⟨1, _⟩ => rfl
  have eL' : ∀ k : Fin 128, lidx_main_v93 (ix2 p q) k = ix2 p k := fun k =>
    funext fun a => by match a with | ⟨0, _⟩ => rfl | ⟨1, _⟩ => rfl
  have eR' : ∀ k : Fin 128, ridx_main_v93 (ix2 p q) k = ix2 k q := fun k =>
    funext fun a => by match a with | ⟨0, _⟩ => rfl | ⟨1, _⟩ => rfl
  have eB : idx_main_v90 (ix2 p q) = ix2 (0 : Fin 1) q :=
    funext fun a => by match a with | ⟨0, _⟩ => rfl | ⟨1, _⟩ => rfl
  simp only [eL, eR, eL', eR', eB, Ideal.addf_def, Ideal.maximumf_def, Ideal.ofBits_def, Ideal.ofBits_zero_f32]
  rfl

/-- The third layer is `dense` of the third aggregate, the second layer's output, the third layer's transposed
    weight matrices and its bias row. -/
theorem layer3 :
    val_main_v95 (F := Ideal) x0 x1 x2 x3 x4 x5 x6 x7 x8 x9 x10
      = dense 100000 (val_main_v86 (F := Ideal) x0 x1 x2 x3 x4 x5 x6 x7) (val_main_v63 (F := Ideal) x0 x1 x2 x3 x4 x5 x6 x7)
          (val_main_v87 (F := Ideal) x8) (val_main_v92 (F := Ideal) x10) (val_main_v89 (F := Ideal) x9) := by
  funext i
  obtain ⟨p, q, rfl⟩ : ∃ (p : Fin 100000) (q : Fin 128), i = ix2 p q := ⟨i 0, i 1, eq_ix2 i⟩
  exact layer3_at x0 x1 x2 x3 x4 x5 x6 x7 x8 x9 x10 p q

/-! ## The aggregations

The mean aggregation of a feature matrix y over the edge list x1 is: gather row src(e) of y for every edge e, add these
rows into row tgt(e) of a zero matrix, and divide row p by the number of edges into p (at least 1). The source list, the
target list and the count depend on x1 only. The program writes these operations out three times, once per layer, each
time slicing x1 anew, so the second and third copies are the first one's operations under other names, applied to the
previous layer's output instead of x0. -/

/-- The second aggregation is the first, as a function of the feature matrix, applied to the first layer's output. -/
theorem agg2 :
    val_main_v54 (F := Ideal) x0 x1 x2 x3 x4 = val_main_v22 (F := Ideal) (val_main_v31 (F := Ideal) x0 x1 x2 x3 x4) x1 := by
  -- the list of source rows, the list of target rows, the matrix of edge counts: the same operations on x1
  have hsrc : val_main_v41 (F := Ideal) x1 = val_main_v9 (F := Ideal) x1 := rfl
  have htgt : val_main_v44 (F := Ideal) x1 = val_main_v12 (F := Ideal) x1 := rfl
  have hcnt : val_main_v53 (F := Ideal) x1 = val_main_v21 (F := Ideal) x1 := rfl
  -- the zero matrix the rows are added into
  have hzero : val_main_v43 (F := Ideal) = val_main_v11 (F := Ideal) := rfl
  unfold val_main_v54 val_main_v45 val_main_v42 val_main_v22 val_main_v13 val_main_v10
  rw [hsrc, htgt, hcnt, hzero]

/-- The third aggregation is the first, as a function of the feature matrix, applied to the second layer's output. -/
theorem agg3 :
    val_main_v86 (F := Ideal) x0 x1 x2 x3 x4 x5 x6 x7 = val_main_v22 (F := Ideal) (val_main_v63 (F := Ideal) x0 x1 x2 x3 x4 x5 x6 x7) x1 := by
  have hsrc : val_main_v73 (F := Ideal) x1 = val_main_v9 (F := Ideal) x1 := rfl
  have htgt : val_main_v76 (F := Ideal) x1 = val_main_v12 (F := Ideal) x1 := rfl
  have hcnt : val_main_v85 (F := Ideal) x1 = val_main_v21 (F := Ideal) x1 := rfl
  have hzero : val_main_v75 (F := Ideal) = val_main_v11 (F := Ideal) := rfl
  unfold val_main_v86 val_main_v77 val_main_v74 val_main_v22 val_main_v13 val_main_v10
  rw [hsrc, htgt, hcnt, hzero]

/-! ## The bias as a matrix of one row -/

/-- A vector of 128 entries reshaped to one row, and the same vector broadcast into one row along the second axis,
    are the same matrix of one row: both have the vector's entry q at (0,q). For the reshape: the position of (0,q)
    in row-major order is 0 · 128 + q = q, the position of q in the vector. -/
theorem bias_row (x : (⟨S128, .f32⟩ : BufTy).Contents (Elt Ideal)) (h : S128.ShapeCasts S1x128) :
    shapeCast S1x128 x h = val_main_v25 (F := Ideal) x := by
  funext i
  rw [val_main_v25_apply]
  refine shapeCast_apply x h i (idx_main_v25 i) ?_
  rw [Shape.rowMajor_val_one, Shape.rowMajor_val_two]
  have h0 : (i 0).val < 1 := (i 0).isLt
  show (i 1).val = (i 0).val * 128 + (i 1).val
  omega

/-- The second and third layers' bias rows are the same operation as the first layer's, of their own bias vectors. -/
theorem bias_row2 (x : (⟨S128, .f32⟩ : BufTy).Contents (Elt Ideal)) :
    val_main_v57 (F := Ideal) x = val_main_v25 (F := Ideal) x := rfl
/-- The same for the third layer's bias row. -/
theorem bias_row3 (x : (⟨S128, .f32⟩ : BufTy).Contents (Elt Ideal)) :
    val_main_v89 (F := Ideal) x = val_main_v25 (F := Ideal) x := rfl

end Cert.ReferenceIdeal.Layers

end
-- ==== Proof.Bridge.lean ====
/-
  The kernel's network and the reference's are one function of the thirteen arguments.

  Both programs are three layers and a projection. On the kernel's side a layer is the dense layer of the launch,
  fed by host operations; on the reference's side every operation is a host operation. Between them:

  * the mean aggregation along the edges is the same chain of operations in both programs (slice the edge list,
    gather, add up at the destinations, divide by the counts): the kernel's `aggMean` of a feature matrix and the two
    rows of the edge list is the reference's first aggregation stage, as a function of the feature matrix and the
    edge list;
  * the transposed weight matrices are the same transposition;
  * the bias enters the kernel reshaped to one row and the reference broadcast to one row: the same matrix;
  * the dense layer itself is `dense` on both sides — for the kernel by the three launches, for the reference by
    reading its operations at an index;
  * the projection is the same four operations.

  So the kernel's layers are the reference's layer stages one after the other, and the two results agree.
-/
import proofs.«158092_j68453188763778_1_alg».proof.Proof.KernelValue
import proofs.«158092_j68453188763778_1_alg».proof.Proof.RefLayers

noncomputable section

namespace Cert.Bridge

open Idealize.ShloMosaic Cert.Spec
open Cert.KernelIdeal.Whole Cert.ReferenceIdeal.Read Cert.ReferenceIdeal.Layers

variable (a0 : (⟨Cert.ReferenceIdeal.S100000x128, .f32⟩ : BufTy).Contents (Elt Ideal)) (a1 : (⟨Cert.ReferenceIdeal.S2x1600000, .i32⟩ : BufTy).Contents (Elt Ideal))
  (a2 : (⟨Cert.ReferenceIdeal.S128x128, .f32⟩ : BufTy).Contents (Elt Ideal)) (a3 : (⟨Cert.ReferenceIdeal.S128, .f32⟩ : BufTy).Contents (Elt Ideal)) (a4 : (⟨Cert.ReferenceIdeal.S128x128, .f32⟩ : BufTy).Contents (Elt Ideal))
  (a5 : (⟨Cert.ReferenceIdeal.S128x128, .f32⟩ : BufTy).Contents (Elt Ideal)) (a6 : (⟨Cert.ReferenceIdeal.S128, .f32⟩ : BufTy).Contents (Elt Ideal)) (a7 : (⟨Cert.ReferenceIdeal.S128x128, .f32⟩ : BufTy).Contents (Elt Ideal))
  (a8 : (⟨Cert.ReferenceIdeal.S128x128, .f32⟩ : BufTy).Contents (Elt Ideal)) (a9 : (⟨Cert.ReferenceIdeal.S128, .f32⟩ : BufTy).Contents (Elt Ideal)) (a10 : (⟨Cert.ReferenceIdeal.S128x128, .f32⟩ : BufTy).Contents (Elt Ideal))
  (a11 : (⟨Cert.ReferenceIdeal.S1x128, .f32⟩ : BufTy).Contents (Elt Ideal)) (a12 : (⟨Cert.ReferenceIdeal.S1, .f32⟩ : BufTy).Contents (Elt Ideal))

/-- The kernel's aggregation of a feature matrix along the edges is the reference's first aggregation stage. -/
theorem aggMean_eq (feat : (⟨Cert.ReferenceIdeal.S100000x128, .f32⟩ : BufTy).Contents (Elt Ideal)) (e : (⟨Cert.ReferenceIdeal.S2x1600000, .i32⟩ : BufTy).Contents (Elt Ideal)) :
    aggMean (F := Ideal) feat (srcOf e) (dstOf e) = val_main_v22 (F := Ideal) feat e := rfl

/-- The kernel's transposed weight matrix is the reference's. -/
theorem weightT_eq (w : (⟨Cert.ReferenceIdeal.S128x128, .f32⟩ : BufTy).Contents (Elt Ideal)) : weightT (F := Ideal) w = val_main_v23 (F := Ideal) w := rfl

/-- The bias reshaped to one row is the bias broadcast to one row. -/
theorem biasRow_eq (b : (⟨Cert.ReferenceIdeal.S128, .f32⟩ : BufTy).Contents (Elt Ideal)) : biasRow (F := Ideal) b = val_main_v25 (F := Ideal) b :=
  bias_row b _

/-- A layer of the kernel's network, with the reference's stages as its operands. -/
theorem layerOf_eq (prev : (⟨Cert.ReferenceIdeal.S100000x128, .f32⟩ : BufTy).Contents (Elt Ideal)) (e : (⟨Cert.ReferenceIdeal.S2x1600000, .i32⟩ : BufTy).Contents (Elt Ideal))
    (wl : (⟨Cert.ReferenceIdeal.S128x128, .f32⟩ : BufTy).Contents (Elt Ideal)) (b : (⟨Cert.ReferenceIdeal.S128, .f32⟩ : BufTy).Contents (Elt Ideal)) (wr : (⟨Cert.ReferenceIdeal.S128x128, .f32⟩ : BufTy).Contents (Elt Ideal)) :
    layerOf prev e wl b wr
      = dense 100000 (val_main_v22 (F := Ideal) prev e) prev (val_main_v23 (F := Ideal) wl) (val_main_v23 (F := Ideal) wr)
          (val_main_v25 (F := Ideal) b) := by
  unfold layerOf
  rw [aggMean_eq, weightT_eq, weightT_eq, biasRow_eq]

/-- The first layer. -/
theorem first : layerOf a0 a1 a2 a3 a4 = val_main_v31 (F := Ideal) a0 a1 a2 a3 a4 := by
  rw [layerOf_eq, layer1]
  rfl

/-- The second layer, of the first layer's output: its aggregate is the reference's second aggregation. -/
theorem second : layerOf (val_main_v31 (F := Ideal) a0 a1 a2 a3 a4) a1 a5 a6 a7 = val_main_v63 (F := Ideal) a0 a1 a2 a3 a4 a5 a6 a7 := by
  rw [layerOf_eq, layer2, agg2]
  rfl

/-- The third layer, of the second layer's output. -/
theorem third : layerOf (val_main_v63 (F := Ideal) a0 a1 a2 a3 a4 a5 a6 a7) a1 a8 a9 a10
    = val_main_v95 (F := Ideal) a0 a1 a2 a3 a4 a5 a6 a7 a8 a9 a10 := by
  rw [layerOf_eq, layer3, agg3]
  rfl

/-- The two networks agree: the kernel's three layers and projection are the reference's result stage. -/
theorem network_eq : network a0 a1 a2 a3 a4 a5 a6 a7 a8 a9 a10 a11 a12
    = val_main_v101 (F := Ideal) a0 a1 a2 a3 a4 a5 a6 a7 a8 a9 a10 a11 a12 := by
  unfold network
  rw [first a0 a1 a2 a3 a4, second a0 a1 a2 a3 a4 a5 a6 a7, third a0 a1 a2 a3 a4 a5 a6 a7 a8 a9 a10]
  rfl

end Cert.Bridge

end
-- ==== Proof.lean ====
/-
  A three-layer GraphSAGE network (mean aggregation) followed by a projection to one number per node: the tiled
  kernel against the plain reference, on the extended reals.

  Each layer is  out = max (agg · wlᵀ + b + x · wrᵀ, 0),  with agg the mean of x over every node's incoming edges.
  In the kernel the aggregation is done by host operations (gather, scatter-add, divide) and the dense part by a
  launch over 25 tiles of 4000 rows, with the two 128 × 128 weight matrices and the bias resident; the reference does
  all of it with host operations on whole matrices. The two agree exactly on the extended reals, with no condition
  on the inputs, because

    * a product into a zero accumulator, tile by tile, and the whole-matrix product are the same sums
      Σ_k lhs(p,k) · rhs(k,q), taken row by row (Proof/LibPlainDot.lean, Proof/Region0–2.lean, Proof/RefLayers.lean);
    * the additions are taken in the same order on both sides, the bias is the same row, and the maximum with zero
      is the same maximum (Proof/Layer.lean states the layer once, for any number of rows);
    * everything else — the aggregation, the transpositions, the projection — is the same chain of host operations in
      both programs, applied to equal operands (Proof/KernelValue.lean, Proof/Bridge.lean).

  No distributivity, cancellation or reordering of a sum is used, so the precondition (finite inputs) is never opened.

  The three frames: the kernel's, word-level and idealized, are the generated frame certificates; the reference's is its
  generated run with the result dropped. The idealization rewrote no operation, so there is nothing to preserve. For
  the value claim the common result is the function `network` of the kernel's arguments: the kernel's run ends with
  its result buffer at the contents the segments fold to (Proof/KernelRun.lean), which is `network`
  (Proof/KernelValue.lean); the reference's run ends at its last stage of its own arguments, which agree with the
  kernel's, and that stage is `network` (Proof/Bridge.lean).
-/
import proofs.«158092_j68453188763778_1_alg».proof.Defs
import proofs.«158092_j68453188763778_1_alg».proof.Proof.Gen.Kernel
import proofs.«158092_j68453188763778_1_alg».proof.Proof.Gen.Kernel.Frame
import proofs.«158092_j68453188763778_1_alg».proof.Proof.Gen.KernelIdeal
import proofs.«158092_j68453188763778_1_alg».proof.Proof.Gen.KernelIdeal.Frame
import proofs.«158092_j68453188763778_1_alg».proof.Proof.Gen.ReferenceIdeal
import proofs.«158092_j68453188763778_1_alg».proof.Proof.Gen.ReferenceIdeal.Run
import proofs.«158092_j68453188763778_1_alg».proof.Proof.Gen.ReferenceIdeal.Read
import proofs.«158092_j68453188763778_1_alg».proof.Proof.Gen.Pre_finite_inputs
import proofs.«158092_j68453188763778_1_alg».proof.Proof.KernelRun
import proofs.«158092_j68453188763778_1_alg».proof.Proof.KernelValue
import proofs.«158092_j68453188763778_1_alg».proof.Proof.Region0
import proofs.«158092_j68453188763778_1_alg».proof.Proof.Region1
import proofs.«158092_j68453188763778_1_alg».proof.Proof.Region2
import proofs.«158092_j68453188763778_1_alg».proof.Proof.RefLayers
import proofs.«158092_j68453188763778_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- The idealized kernel runs and leaves its arguments as they were. -/
theorem frame_kernelIdeal : Cert.frame_KernelIdeal := fun m ρ _ => Cert.KernelIdeal.Gen.frame m ρ

/-- The idealized reference runs and leaves its arguments as they were. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with `network` of the arguments in their result buffers. -/
theorem algebraic : Cert.algebraic_KernelIdeal_ReferenceIdeal := by
  intro m ρ m' ρ' _ hagree
  refine ⟨fun c => Cert.KernelIdeal.Whole.network (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · refine (θ_run Cert.KernelIdeal.defs _ _).mono (fun r h c => ⟨(h c).1.trans ?_, (h c).2⟩)
      (Cert.KernelIdeal.Whole.run_result (F := Ideal) m ρ)
    exact Cert.KernelIdeal.Whole.result m ρ c Cert.KernelIdeal.Region0.final Cert.KernelIdeal.Region1.final
      Cert.KernelIdeal.Region2.final
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.ReferenceIdeal.Read.val_main_v101_eq, e0, e1, e2, e3, e4, e5, e6, e7, e8, e9, e10, e11, e12]
    exact (Cert.Bridge.network_eq _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
